-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S256x16 .f32) (main_arg9 : FVec F S16 .f32) (main_v33 : IVec S_ 1) : IVec S_ 1 :=
  let main_v34 : FVec F S256x16 .f32 := Host.absf main_arg8
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S256x256 .f32) (main_arg8 : FVec F S256x16 .f32) (main_arg9 : FVec F S16 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x16 .f32) (main_arg9 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S600000x256 : Shape := ⟨2, ![600000, 256]⟩
abbrev S256x128 : Shape := ⟨2, ![256, 128]⟩
abbrev S1 : Shape := ⟨1, ![1]⟩
abbrev S128 : Shape := ⟨1, ![128]⟩
abbrev S1x128 : Shape := ⟨2, ![1, 128]⟩
abbrev S50000x16 : Shape := ⟨2, ![50000, 16]⟩

abbrev nBuf : Space → Nat
  | .hbm => 70
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x16, .f32⟩
  | .hbm, ⟨9, _⟩ => ⟨S16, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S1x256, .f32⟩
  | .hbm, ⟨41, _⟩ => ⟨S50000x256, .bf16⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x256, .bf16⟩
  | .hbm, ⟨51, _⟩ => ⟨S600000x256, .f32⟩
  | .hbm, ⟨52, _⟩ => ⟨S_, .f32⟩
  | .hbm, ⟨53, _⟩ => ⟨S50000x256, .f32⟩
  | .hbm, ⟨54, _⟩ => ⟨S600000x1, .i32⟩
  | .hbm, ⟨55, _⟩ => ⟨S50000x256, .f32⟩
  | .hbm, ⟨56, _⟩ => ⟨S1x256, .f32⟩
  | .hbm, ⟨57, _⟩ => ⟨S_, .f32⟩
  | .hbm, ⟨58, _⟩ => ⟨S256x128, .f32⟩
  | .hbm, ⟨59, _⟩ => ⟨S_, .i32⟩
  | .hbm, ⟨60, _⟩ => ⟨S1, .i32⟩
  | .hbm, ⟨61, _⟩ => ⟨S256x128, .f32⟩
  | .hbm, ⟨62, _⟩ => ⟨S_, .f32⟩
  | .hbm, ⟨63, _⟩ => ⟨S128, .f32⟩
  | .hbm, ⟨64, _⟩ => ⟨S_, .i32⟩
  | .hbm, ⟨65, _⟩ => ⟨S1, .i32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S256x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  shapeCasts_S128_S1x128 : S128.ShapeCasts S1x128
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S50000x128_S50000x16_0_0 : S50000x128.Slices ![0, 0] S50000x16
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  scatter_S256x128_S1_S256x16_01_n_1_0_wf : ScatterDims.WF S256x128 S1 S256x16 [0, 1] [] [1] 0
  scatter_S128_S1_S16_0_n_0_0_wf : ScatterDims.WF S128 S1 S16 [0] [] [0] 0
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def scatter_S256x128_S1_S256x16_01_n_1_0 : ScatterDims S256x128 S1 S256x16 where
  updateWindowDims := [0, 1]
  insertedWindowDims := []
  scatterDimsToOperandDims := [1]
  indexVectorDim := 0
  wf := scatter_S256x128_S1_S256x16_01_n_1_0_wf
def scatter_S128_S1_S16_0_n_0_0 : ScatterDims S128 S1 S16 where
  updateWindowDims := [0]
  insertedWindowDims := []
  scatterDimsToOperandDims := [0]
  indexVectorDim := 0
  wf := scatter_S128_S1_S16_0_n_0_0_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S50000x16 : Shape := ⟨2, ![50000, 16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x16, .f32⟩
  | .hbm, ⟨9, _⟩ => ⟨S16, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x256, .f32⟩
  | .hbm, ⟨57, _⟩ => ⟨S_, .f32⟩
  | .hbm, ⟨58, _⟩ => ⟨S50000x256, .f32⟩
  | .hbm, ⟨59, _⟩ => ⟨S600000x1, .i32⟩
  | .hbm, ⟨60, _⟩ => ⟨S50000x256, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S_, .f32⟩
  | .hbm, ⟨80, _⟩ => ⟨S50000x256, .f32⟩
  | .hbm, ⟨81, _⟩ => ⟨S50000x256, .f32⟩
  | .hbm, ⟨82, _⟩ => ⟨S50000x16, .f32⟩
  | .hbm, ⟨83, _⟩ => ⟨S1x16, .f32⟩
  | .hbm, ⟨84, _⟩ => ⟨S50000x16, .f32⟩
  | .hbm, ⟨85, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x16_S50000x16_1_0_0_1_n_n_wf : DotDims.WF S50000x256 S256x16 S50000x16 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf

class Facts : Prop extends Facts₀ where

variable [Facts]
-- ==== Proof.KernelRun.lean ====
/-
  The kernel program's run, with every buffer named at the end.

  The program is five stretches: host operations, the first layer's region, host operations, the second layer's
  region, host operations. The contents of the TensorCore's buffers at each boundary are a fold through them from the
  launch memory: a host stretch applies its operations, a region replaces its arrays by what its write-backs leave.
  Every weakly fair execution terminates without a fault, and at the end every buffer that outlives the run holds
  the last boundary's contents — in particular the result array and the ten arguments.
-/
import proofs.«153080_j51977694216572_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the contents the fold through the five stretches gives it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result array is an unscoped buffer. -/
theorem result_mem_uc : Proc.devRef .tc main_v45 ∈ Pipeline.ucRefs τ sig := mem_uc main_v45 (by decide)

end Cert.KernelIdeal.RunValue

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibSageLayer.lean ====
/-
  One graph layer read at an entry, and the classifier on top of it.

  A layer takes the summed neighbour rows S : [M, K], a column of scales [M, 1], the node's own rows H : [M, K],
  two weight matrices [K, N] and one bias row [1, N]. Its entry (p, q) is

      max ( ( ∑ₖ (S(p,k) · scale(p)) · Wl(k,q)  +  b(q) )  +  ∑ₖ H(p,k) · Wr(k,q) ,  0 ).

  The body that computes it narrows every matrix operand to bf16 on the way into the two matrix products; on the
  extended reals a change of format is the identity, each product into the zero accumulator is the plain sum over
  the contracted axis, the scale column is spread along its row and the bias row down the rows. The classifier is
  one more product with a bias row: ∑ₖ Z(p,k) · Wc(k,q) + bc(q). General in the three extents.
-/
import Idealize.ShloMosaic.PureOps.Ideal.Laws
import Idealize.ShloMosaic.Lib.ValueIdx
import Idealize.ShloMosaic.Lib.ValueLayout
import Idealize.ShloMosaic.Lib.Pipeline.Value
import proofs.«153080_j51977694216572_2_alg».proof.Proof.LibPlainDot
import proofs.«153080_j51977694216572_2_alg».proof.Proof.LibColumns

noncomputable section

namespace SageLayer

open Idealize.ShloMosaic Idealize.ShloMosaic.ValueIdx

/-- The word of 0.0, read on the extended reals. -/
abbrev zeroW : EReal := Ideal.ofBits .f32 0x00000000#32

/-- One entry of a layer from the K products on each side and the bias. -/
def entry {K : ℕ} (a wl h wr : Fin K → EReal) (b : EReal) : EReal :=
  max (((∑ k, a k * wl k) + b) + ∑ k, h k * wr k) zeroW

/-- Equal ingredients give equal entries. -/
theorem entry_congr {K : ℕ} {a a' wl wl' h h' wr wr' : Fin K → EReal} {b b' : EReal}
    (ha : ∀ k, a k = a' k) (hwl : ∀ k, wl k = wl' k) (hh : ∀ k, h k = h' k) (hwr : ∀ k, wr k = wr' k) (hb : b = b') :
    entry a wl h wr b = entry a' wl' h' wr' b' := by
  rw [show a = a' from funext ha, show wl = wl' from funext hwl, show h = h' from funext hh,
    show wr = wr' from funext hwr, hb]

/-- The layer as its body spells it, at entry (p, q). The node's own rows arrive already narrowed (Hb). -/
theorem body_apply {M K N : ℕ}
    (d : DotDims ⟨2, ![M, K]⟩ ⟨2, ![K, N]⟩ ⟨2, ![M, N]⟩) (hd : d = DotDims.plain M K N)
    (S : FVec Ideal ⟨2, ![M, K]⟩ .f32) (inv : FVec Ideal ⟨2, ![M, 1]⟩ .f32) (Hb : FVec Ideal ⟨2, ![M, K]⟩ .bf16)
    (Wl Wr : FVec Ideal ⟨2, ![K, N]⟩ .f32) (b : FVec Ideal ⟨2, ![1, N]⟩ .f32)
    (hS : (⟨2, ![M, K]⟩ : Shape).ShapeCasts ⟨2, ![M, K]⟩) (hi : (⟨2, ![M, 1]⟩ : Shape).ShapeCasts ⟨2, ![M, 1]⟩)
    (hb : (⟨2, ![1, N]⟩ : Shape).ShapeCasts ⟨2, ![1, N]⟩)
    (hc : (⟨2, ![M, 1]⟩ : Shape).Broadcasts ⟨2, ![M, K]⟩) (hr : (⟨2, ![1, N]⟩ : Shape).Broadcasts ⟨2, ![M, N]⟩)
    (hlt : FTy.bits .bf16 < FTy.bits .f32) (p : Fin M) (q : Fin N) :
    maximumf
        (addf
          (addf
            (matmul d none
              (truncf .bf16 (mulf (shapeCast ⟨2, ![M, K]⟩ S hS)
                (broadcastTo ⟨2, ![M, K]⟩ (shapeCast ⟨2, ![M, 1]⟩ inv hi) hc)) hlt)
              (truncf .bf16 Wl hlt) (constant ⟨2, ![M, N]⟩ .f32 0x00000000#32))
            (broadcastTo ⟨2, ![M, N]⟩ (shapeCast ⟨2, ![1, N]⟩ b hb) hr))
          (matmul d none Hb (truncf .bf16 Wr hlt) (constant ⟨2, ![M, N]⟩ .f32 0x00000000#32)))
        (broadcast ⟨2, ![M, N]⟩ (Scalar.ofBits (F := Ideal) .f32 0x00000000#32)) (ix2 p q)
      = entry (fun k => S (ix2 p k) * inv (ix2 p (0 : Fin 1))) (fun k => Wl (ix2 k q))
          (fun k => Hb (ix2 p k)) (fun k => Wr (ix2 k q)) (b (ix2 (0 : Fin 1) q)) := by
  rw [shapeCast_self S hS, shapeCast_self inv hi, shapeCast_self b hb, maximumf_apply, addf_apply, addf_apply]
  dsimp only [Idealize.ShloMosaic.matmul]
  rw [matmul_plain_zero_apply d hd, matmul_plain_zero_apply d hd, broadcastTo_1b_ab_apply, broadcast_apply]
  simp only [truncf_apply, mulf_apply, broadcastTo_a1_ab_apply]
  rfl

/-- A product of narrowed rows with a narrowed weight matrix into the zero accumulator, plus a bias row spread down
    the rows, at entry (p, q). -/
theorem rowsBias_apply {M K N : ℕ}
    (d : DotDims ⟨2, ![M, K]⟩ ⟨2, ![K, N]⟩ ⟨2, ![M, N]⟩) (hd : d = DotDims.plain M K N)
    (Z : FVec Ideal ⟨2, ![M, K]⟩ .bf16) (Wc : FVec Ideal ⟨2, ![K, N]⟩ .f32) (bc : FVec Ideal ⟨2, ![1, N]⟩ .f32)
    (hW : (⟨2, ![K, N]⟩ : Shape).ShapeCasts ⟨2, ![K, N]⟩) (hb : (⟨2, ![1, N]⟩ : Shape).ShapeCasts ⟨2, ![1, N]⟩)
    (hr : (⟨2, ![1, N]⟩ : Shape).Broadcasts ⟨2, ![M, N]⟩)
    (hlt : FTy.bits .bf16 < FTy.bits .f32) (p : Fin M) (q : Fin N) :
    addf
        (matmul d none Z (truncf .bf16 (shapeCast ⟨2, ![K, N]⟩ Wc hW) hlt) (constant ⟨2, ![M, N]⟩ .f32 0x00000000#32))
        (broadcastTo ⟨2, ![M, N]⟩ (shapeCast ⟨2, ![1, N]⟩ bc hb) hr) (ix2 p q)
      = (∑ k : Fin K, Z (ix2 p k) * Wc (ix2 k q)) + bc (ix2 (0 : Fin 1) q) := by
  rw [shapeCast_self Wc hW, shapeCast_self bc hb, addf_apply]
  dsimp only [Idealize.ShloMosaic.matmul]
  rw [matmul_plain_zero_apply d hd, broadcastTo_1b_ab_apply]
  simp only [truncf_apply]

end SageLayer

end
-- ==== Proof.LibSageLayerHost.lean ====
/-
  One graph layer and the classifier as the host program spells them, read at an entry.

  The host divides the summed neighbour rows S : [M, K] by the edge counts [M] laid as a column and spread along the
  rows, multiplies by the first weight matrix, adds the bias [N] laid as a row and spread down the rows, adds the
  product of the node's own rows with the second weight matrix, and takes the maximum with a zero splat. At entry
  (p, q) that is the layer's entry with S(p, k) / count(p) in place of the scaled row. The classifier is a product
  plus a bias spread the same way. General in the three extents.
-/
import Idealize.ShloMosaic.PureOps.Ideal.Laws
import Idealize.ShloMosaic.Lib.ValueIdx
import Idealize.ShloMosaic.Lib.Pipeline.Value
import proofs.«153080_j51977694216572_2_alg».proof.Proof.LibPlainDot
import proofs.«153080_j51977694216572_2_alg».proof.Proof.LibBroadcastInDim
import proofs.«153080_j51977694216572_2_alg».proof.Proof.LibSageLayer

noncomputable section

namespace SageLayer

open Idealize.ShloMosaic Idealize.ShloMosaic.ValueIdx

/-- The layer as the host spells it, at entry (p, q). -/
theorem host_apply {M K N : ℕ}
    (d : DotDims ⟨2, ![M, K]⟩ ⟨2, ![K, N]⟩ ⟨2, ![M, N]⟩) (hd : d = DotDims.plain M K N)
    (S : FVec Ideal ⟨2, ![M, K]⟩ .f32) (cnt : FVec Ideal ⟨1, ![M]⟩ .f32) (H : FVec Ideal ⟨2, ![M, K]⟩ .f32)
    (Wl Wr : FVec Ideal ⟨2, ![K, N]⟩ .f32) (b : FVec Ideal ⟨1, ![N]⟩ .f32)
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (h5 : (⟨0, ![]⟩ : Shape).BroadcastsInDim ⟨2, ![M, N]⟩ (![] : Fin 0 → Fin 2))
    (p : Fin M) (q : Fin N) :
    maximumf
        (addf
          (addf
            (Host.dotGeneral d none
              (Host.divf S (broadcastInDim ⟨2, ![M, K]⟩ ![0, 1] h2 (broadcastInDim ⟨2, ![M, 1]⟩ ![0] h1 cnt))) Wl)
            (broadcastInDim ⟨2, ![M, N]⟩ ![0, 1] h4 (broadcastInDim ⟨2, ![1, N]⟩ ![1] h3 b)))
          (Host.dotGeneral d none H Wr))
        (broadcastInDim ⟨2, ![M, N]⟩ ![] h5 (constant (F := Ideal) ⟨0, ![]⟩ .f32 0x00000000#32)) (ix2 p q)
      = entry (fun k => Ideal.div (S (ix2 p k)) (cnt (ix1 p))) (fun k => Wl (ix2 k q))
          (fun k => H (ix2 p k)) (fun k => Wr (ix2 k q)) (b (ix1 q)) := by
  rw [maximumf_apply, addf_apply, addf_apply]
  dsimp only [Host.dotGeneral]
  rw [dotGeneral_plain_apply d hd, dotGeneral_plain_apply d hd, broadcastInDim_1b_ab_apply, broadcastInDim_b_1b_apply,
    broadcastInDim_scalar_apply]
  show entry (fun k => Ideal.div (S (ix2 p k))
      (broadcastInDim ⟨2, ![M, K]⟩ ![0, 1] h2 (broadcastInDim ⟨2, ![M, 1]⟩ ![0] h1 cnt) (ix2 p k)))
    (fun k => Wl (ix2 k q)) (fun k => H (ix2 p k)) (fun k => Wr (ix2 k q)) (b (ix1 q)) = _
  refine entry_congr (fun k => ?_) (fun _ => rfl) (fun _ => rfl) (fun _ => rfl) rfl
  rw [broadcastInDim_a1_ab_apply, broadcastInDim_a_a1_apply]

/-- The classifier as the host spells it, at entry (p, q). -/
theorem hostRowsBias_apply {M K N : ℕ}
    (d : DotDims ⟨2, ![M, K]⟩ ⟨2, ![K, N]⟩ ⟨2, ![M, N]⟩) (hd : d = DotDims.plain M K N)
    (Z : FVec Ideal ⟨2, ![M, K]⟩ .f32) (Wc : FVec Ideal ⟨2, ![K, N]⟩ .f32) (bc : FVec Ideal ⟨1, ![N]⟩ .f32)
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (p : Fin M) (q : Fin N) :
    addf (Host.dotGeneral d none Z Wc)
        (broadcastInDim ⟨2, ![M, N]⟩ ![0, 1] h4 (broadcastInDim ⟨2, ![1, N]⟩ ![1] h3 bc)) (ix2 p q)
      = (∑ k : Fin K, Z (ix2 p k) * Wc (ix2 k q)) + bc (ix1 q) := by
  rw [addf_apply]
  dsimp only [Host.dotGeneral]
  rw [dotGeneral_plain_apply d hd, broadcastInDim_1b_ab_apply, broadcastInDim_b_1b_apply]

end SageLayer

end
-- ==== Proof.RefEntry.lean ====
/-
  The reference program's three stages read at an entry.

  The reference computes the first layer's output h1 : [50000, 256], the second layer's output h2 : [50000, 256] from h1,
  and the logits h2 · wc + bc : [50000, 16]. Each layer divides the summed neighbour rows by the edge counts floored at
  one; the summed rows and the counts are the results of gathers and accumulating scatters along the edge list, which
  are carried here as they stand and never opened.
-/
import proofs.«153080_j51977694216572_2_alg».proof.Proof.Gen.ReferenceIdeal.Read
import proofs.«153080_j51977694216572_2_alg».proof.Proof.LibSageLayerHost

noncomputable section

namespace Cert.ReferenceIdeal.RefValue

open Cert.ReferenceIdeal Cert.ReferenceIdeal.Gen Cert.ReferenceIdeal.Read
open Idealize.ShloMosaic Idealize.ShloMosaic.ValueIdx SageLayer

/-- The first layer's output at (r, q). -/
theorem layer1_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (r : Fin 50000) (q : Fin 256) :
    val_main_v29 (F := Ideal) x0 x1 x2 x3 x4 (ix2 r q)
      = entry (fun k : Fin 128 => Ideal.div (val_main_v13 (F := Ideal) x0 x1 (ix2 r k)) (val_main_v19 (F := Ideal) x1 (ix1 r)))
          (fun k => x2 (ix2 k q)) (fun k => x0 (ix2 r k)) (fun k => x4 (ix2 k q)) (x3 (ix1 q)) := by
  unfold val_main_v29 val_main_v28 val_main_v26 val_main_v27 val_main_v23 val_main_v22 val_main_v21 val_main_v20
    val_main_v25 val_main_v24 val_main_call0_v0 val_main_call0_cst
  exact host_apply dot_S50000x128_S128x256_S50000x256_1_0_0_1_n_n rfl _ _ x0 x2 x4 x3 _ _ _ _ _ r q

/-- The second layer's output at (r, k), from the first layer's. -/
theorem layer2_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (r : Fin 50000) (k : Fin 256) :
    val_main_v55 (F := Ideal) x0 x1 x2 x3 x4 x5 x6 x7 (ix2 r k)
      = entry (fun k' : Fin 256 => Ideal.div (val_main_v39 (F := Ideal) x0 x1 x2 x3 x4 (ix2 r k')) (val_main_v45 (F := Ideal) x1 (ix1 r)))
          (fun k' => x5 (ix2 k' k)) (fun k' => val_main_v29 (F := Ideal) x0 x1 x2 x3 x4 (ix2 r k')) (fun k' => x7 (ix2 k' k))
          (x6 (ix1 k)) := by
  unfold val_main_v55 val_main_v54 val_main_v52 val_main_v53 val_main_v49 val_main_v48 val_main_v47 val_main_v46
    val_main_v51 val_main_v50 val_main_call1_v0 val_main_call1_cst
  exact host_apply dot_S50000x256_S256x256_S50000x256_1_0_0_1_n_n rfl _ _ _ x5 x7 x6 _ _ _ _ _ r k

/-- The logits at (r, q). -/
theorem logits_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256x16, .f32⟩ : BufTy).Contents (Elt Ideal)) (x9 : (⟨S16, .f32⟩ : BufTy).Contents (Elt Ideal)) (r : Fin 50000) (q : Fin 16) :
    val_main_v59 (F := Ideal) x0 x1 x2 x3 x4 x5 x6 x7 x8 x9 (ix2 r q)
      = (∑ k : Fin 256, val_main_v55 (F := Ideal) x0 x1 x2 x3 x4 x5 x6 x7 (ix2 r k) * x8 (ix2 k q)) + x9 (ix1 q) := by
  unfold val_main_v59 val_main_v56 val_main_v58 val_main_v57
  exact hostRowsBias_apply dot_S50000x256_S256x16_S50000x16_1_0_0_1_n_n rfl _ x8 x9 _ _ r q

/-- The second layer's summed neighbour rows as ONE function of the first layer's output H and the edge list: the rows
    of H gathered along the sources and accumulated onto the targets. -/
def seg2 (H : (⟨S50000x256, .f32⟩ : BufTy).Contents (Elt Ideal)) (x1 : (⟨S2x600000, .i32⟩ : BufTy).Contents (Elt Ideal)) : (⟨S50000x256, .f32⟩ : BufTy).Contents (Elt Ideal) :=
  Host.scatterAdd (F := Ideal) (φ := FTy.f32) scatter_S50000x256_S600000x1_S600000x256_1_0_0_1 (val_main_v37 (F := Ideal))
    (val_main_v38 (F := Ideal) x1)
    (Host.gather gather_S50000x256_S600000x1_S600000x256_1_0_n_n_0_1_1256 H (val_main_v35 (F := Ideal) x1))

/-- The reference's second neighbour sum is that function of its first layer's output. -/
theorem v39_eq (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal)) :
    val_main_v39 (F := Ideal) x0 x1 x2 x3 x4 = seg2 (val_main_v29 (F := Ideal) x0 x1 x2 x3 x4) x1 := rfl

/-- The edge counts are computed once more for the second layer, by the same operations. -/
theorem v45_eq (x1 : (⟨S2x600000, .i32⟩ : BufTy).Contents (Elt Ideal)) : val_main_v45 (F := Ideal) x1 = val_main_v19 (F := Ideal) x1 := rfl

end Cert.ReferenceIdeal.RefValue

end
-- ==== Proof.Region1.lean ====
/-
  The first layer's region: what its output array holds when the region is left.

  The grid has 25 points; point t takes rows [2000·t, 2000·t + 2000) of the summed neighbour rows, of the scale column
  and of the node features, the two weight matrices and the bias row whole, and writes rows [2000·t, 2000·t + 2000) of
  the output. The body computes each entry of its block from row p of its three row blocks only, so block t of the
  output is block t of ONE function of the whole arrays — the layer's entry at (2000·t + p, q) — and the 25 blocks
  tile the output. Everything is stated at the contents V the region finds its arrays at.
-/
import proofs.«153080_j51977694216572_2_alg».proof.Proof.Gen.KernelIdeal.Frame
import proofs.«153080_j51977694216572_2_alg».proof.Proof.LibSageLayer
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)
open SageLayer

/-- The layer's entry (r, q) from the whole arrays. -/
def layerAt (S : S50000x128.Idx → EReal) (inv : S50000x1.Idx → EReal) (H : S50000x128.Idx → EReal)
    (Wl : S128x256.Idx → EReal) (b : S1x256.Idx → EReal) (Wr : S128x256.Idx → EReal) (r : Fin 50000) (q : Fin 256) : EReal :=
  entry (fun k : Fin 128 => S (ix2 r k) * inv (ix2 r (0 : Fin 1))) (fun k => Wl (ix2 k q))
    (fun k => H (ix2 r k)) (fun k => Wr (ix2 k q)) (b (ix2 (0 : Fin 1) q))

/-- The layer's output array. -/
def layerArr (S : S50000x128.Idx → EReal) (inv : S50000x1.Idx → EReal) (H : S50000x128.Idx → EReal)
    (Wl : S128x256.Idx → EReal) (b : S1x256.Idx → EReal) (Wr : S128x256.Idx → EReal) : S50000x256.Idx → EReal :=
  fun i => layerAt S inv H Wl b Wr ⟨(i 0).val, idx2_lt0 i⟩ ⟨(i 1).val, idx2_lt1 i⟩

theorem layerArr_apply (S : S50000x128.Idx → EReal) (inv : S50000x1.Idx → EReal) (H : S50000x128.Idx → EReal)
    (Wl : S128x256.Idx → EReal) (b : S1x256.Idx → EReal) (Wr : S128x256.Idx → EReal) (r : Fin 50000) (q : Fin 256) :
    layerArr S inv H Wl b Wr (ix2 r q) = layerAt S inv H Wl b Wr r q := rfl

theorem hz : (![0, 0] : Fin 2 → Nat) = fun _ => 0 := funext fun a => by fin_cases a <;> rfl

/-- The body's result at entry (p, q) of its block, from the six blocks it loads. -/
theorem out_apply (x0 : FVec Ideal S2000x128 .f32) (x1 : FVec Ideal S2000x1 .f32) (x2 : FVec Ideal S2000x128 .f32)
    (x3 : FVec Ideal S128x256 .f32) (x4 : FVec Ideal S1x256 .f32) (x5 : FVec Ideal S128x256 .f32) (p : Fin 2000) (q : Fin 256) :
    out0_6 (F := Ideal) x0 x1 x2 x3 x4 x5 (ix2 p q)
      = entry (fun k : Fin 128 => x0 (ix2 p k) * x1 (ix2 p (0 : Fin 1))) (fun k => x3 (ix2 k q))
          (fun k => x2 (ix2 p k)) (fun k => x5 (ix2 k q)) (x4 (ix2 (0 : Fin 1) q)) := by
  unfold out0_6
  rw [View.canon_unit_zero hz]
  simp only [View.ld_unit_zero (S := S2000x128) hz, View.ld_unit_zero (S := S2000x1) hz,
    View.ld_unit_zero (S := S128x256) hz, View.ld_unit_zero (S := S1x256) hz]
  unfold k0_pay1
  exact body_apply dot_S2000x128_S128x256_S2000x256_1_0_0_1_n_n rfl x0 x1 (truncf .bf16 x2 bitsLt_bf16_f32) x3 x5 x4
    _ _ _ _ _ _ p q

/-- The printed index maps over the grid: the three row windows and the output move with the point along the rows;
    the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block is row 2000·t + p of the array. -/
def row (t : Fin cfg0.N) (p : Fin 2000) : Fin 50000 :=
  ⟨t.val * 2000 + p.val, by have h := t.isLt; have hN : cfg0.N = 25 := N_0; omega⟩

variable (V : (c : Dev nD) → (b : Ref sig .tc) → Buf (Elt Ideal) ((c : Thread nD τ).loc b))

theorem read0 (c : Dev nD) (t : Fin cfg0.N) (p : Fin 2000) (k : Fin 128) :
    iblk0 V c 0 t (ix2 p k) = (V c main_v22 : S50000x128.Idx → EReal) (ix2 (row t p) k) := by
  obtain ⟨e00, e01, -⟩ := idx_facts t
  show (V c main_v22 : S50000x128.Idx → EReal) (((cfg0.win 0).blk t).view.emb (ix2 p k)) = _
  refine congrArg _ (funext fun a => Fin.ext ?_)
  match a with
  | ⟨0, _⟩ => show win0_0.index t (0 : Fin 2) * 2000 + 1 * p.val = t.val * 2000 + p.val; rw [e00]; omega
  | ⟨1, _⟩ => show win0_0.index t (1 : Fin 2) * 128 + 1 * k.val = k.val; rw [e01]; omega

theorem read1 (c : Dev nD) (t : Fin cfg0.N) (p : Fin 2000) :
    iblk0 V c 1 t (ix2 p (0 : Fin 1)) = (V c main_v12 : S50000x1.Idx → EReal) (ix2 (row t p) (0 : Fin 1)) := by
  obtain ⟨-, -, e10, e11, -⟩ := idx_facts t
  show (V c main_v12 : S50000x1.Idx → EReal) (((cfg0.win 1).blk t).view.emb (ix2 p (0 : Fin 1))) = _
  refine congrArg _ (funext fun a => Fin.ext ?_)
  match a with
  | ⟨0, _⟩ => show win0_1.index t (0 : Fin 2) * 2000 + 1 * p.val = t.val * 2000 + p.val; rw [e10]; omega
  | ⟨1, _⟩ => show win0_1.index t (1 : Fin 2) * 1 + 1 * 0 = 0; rw [e11]

theorem read2 (c : Dev nD) (t : Fin cfg0.N) (p : Fin 2000) (k : Fin 128) :
    iblk0 V c 2 t (ix2 p k) = (V c main_arg0 : S50000x128.Idx → EReal) (ix2 (row t p) k) := by
  obtain ⟨-, -, -, -, e20, e21, -⟩ := idx_facts t
  show (V c main_arg0 : S50000x128.Idx → EReal) (((cfg0.win 2).blk t).view.emb (ix2 p k)) = _
  refine congrArg _ (funext fun a => Fin.ext ?_)
  match a with
  | ⟨0, _⟩ => show win0_2.index t (0 : Fin 2) * 2000 + 1 * p.val = t.val * 2000 + p.val; rw [e20]; omega
  | ⟨1, _⟩ => show win0_2.index t (1 : Fin 2) * 128 + 1 * k.val = k.val; rw [e21]; omega

theorem read3 (c : Dev nD) (t : Fin cfg0.N) (k : Fin 128) (q : Fin 256) :
    iblk0 V c 3 t (ix2 k q) = (V c main_arg2 : S128x256.Idx → EReal) (ix2 k q) := by
  obtain ⟨-, -, -, -, -, -, e30, e31, -⟩ := idx_facts t
  show (V c main_arg2 : S128x256.Idx → EReal) (((cfg0.win 3).blk t).view.emb (ix2 k q)) = _
  refine congrArg _ (funext fun a => Fin.ext ?_)
  match a with
  | ⟨0, _⟩ => show win0_3.index t (0 : Fin 2) * 128 + 1 * k.val = k.val; rw [e30]; omega
  | ⟨1, _⟩ => show win0_3.index t (1 : Fin 2) * 256 + 1 * q.val = q.val; rw [e31]; omega

theorem read4 (c : Dev nD) (t : Fin cfg0.N) (q : Fin 256) :
    iblk0 V c 4 t (ix2 (0 : Fin 1) q) = (V c main_v23 : S1x256.Idx → EReal) (ix2 (0 : Fin 1) q) := by
  obtain ⟨-, -, -, -, -, -, -, -, e40, e41, -⟩ := idx_facts t
  show (V c main_v23 : S1x256.Idx → EReal) (((cfg0.win 4).blk t).view.emb (ix2 (0 : Fin 1) q)) = _
  refine congrArg _ (funext fun a => Fin.ext ?_)
  match a with
  | ⟨0, _⟩ => show win0_4.index t (0 : Fin 2) * 1 + 1 * 0 = 0; rw [e40]
  | ⟨1, _⟩ => show win0_4.index t (1 : Fin 2) * 256 + 1 * q.val = q.val; rw [e41]; omega

theorem read5 (c : Dev nD) (t : Fin cfg0.N) (k : Fin 128) (q : Fin 256) :
    iblk0 V c 5 t (ix2 k q) = (V c main_arg4 : S128x256.Idx → EReal) (ix2 k q) := by
  obtain ⟨-, -, -, -, -, -, -, -, -, -, e50, e51, -⟩ := idx_facts t
  show (V c main_arg4 : S128x256.Idx → EReal) (((cfg0.win 5).blk t).view.emb (ix2 k q)) = _
  refine congrArg _ (funext fun a => Fin.ext ?_)
  match a with
  | ⟨0, _⟩ => show win0_5.index t (0 : Fin 2) * 128 + 1 * k.val = k.val; rw [e50]; omega
  | ⟨1, _⟩ => show win0_5.index t (1 : Fin 2) * 256 + 1 * q.val = q.val; rw [e51]; omega

/-- The layer of the arrays as the region finds them. -/
abbrev G (c : Dev nD) : S50000x256.Idx → EReal :=
  layerArr (V c main_v22) (V c main_v12) (V c main_arg0) (V c main_arg2) (V c main_v23) (V c main_arg4)

/-- What point t writes back is block t of the layer's array. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  funext j
  obtain ⟨p, q, rfl⟩ : ∃ (p : Fin 2000) (q : Fin 256), j = ix2 p q := ⟨j 0, j 1, eq_ix2 j⟩
  have he : ((cfg0.win 6).blk t).view.emb (ix2 p q) = (ix2 (row t p) q : S50000x256.Idx) := by
    obtain ⟨-, -, -, -, -, -, -, -, -, -, -, -, e60, e61⟩ := idx_facts t
    funext a; apply Fin.ext
    match a with
    | ⟨0, _⟩ => show win0_6.index t (0 : Fin 2) * 2000 + 1 * p.val = t.val * 2000 + p.val; rw [e60]; omega
    | ⟨1, _⟩ => show win0_6.index t (1 : Fin 2) * 256 + 1 * q.val = q.val; rw [e61]; omega
  show out0_6 (F := Ideal) (iblk0 V c 0 t) (iblk0 V c 1 t) (iblk0 V c 2 t) (iblk0 V c 3 t) (iblk0 V c 4 t) (iblk0 V c 5 t) (ix2 p q)
    = G V c (((cfg0.win 6).blk t).view.emb (ix2 p q))
  rw [he]
  refine (out_apply _ _ _ _ _ _ p q).trans ?_
  show _ = layerAt _ _ _ _ _ _ (row t p) q
  unfold layerAt
  exact entry_congr (fun k => by rw [read0 V c t p k, read1 V c t p]) (fun k => read3 V c t k q)
    (fun k => read2 V c t p k) (fun k => read5 V c t k q) (read4 V c t q)

/-- The 25 blocks tile the output: row r is in the block of point r / 2000. -/
theorem cover (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0 : Nat) < 50000 := (i 0).isLt
  have hi1 : (i 1 : Nat) < 256 := (i 1).isLt
  have hN : grid0.N = 25 := N_0
  have ht : (i 0 : Nat) / 2000 < cfg0.N := by show _ < grid0.N; omega
  obtain ⟨-, -, -, -, -, -, -, -, -, -, -, -, e60, e61⟩ := idx_facts ⟨(i 0 : Nat) / 2000, ht⟩
  refine ⟨⟨(i 0 : Nat) / 2000, ht⟩, flush0_6 _, ?_⟩
  show i ∈ ((View.whole main_v24).slice (win0_6.rect ⟨(i 0 : Nat) / 2000, ht⟩)).set
  rw [View.set_slice_whole, Rect.mem_set_unit]
  intro a
  match a with
  | ⟨0, _⟩ =>
    show win0_6.index ⟨(i 0 : Nat) / 2000, ht⟩ (0 : Fin 2) * 2000 ≤ (i 0 : Nat)
      ∧ (i 0 : Nat) < win0_6.index ⟨(i 0 : Nat) / 2000, ht⟩ (0 : Fin 2) * 2000 + 2000
    rw [e60]
    show (i 0 : Nat) / 2000 * 2000 ≤ (i 0 : Nat) ∧ (i 0 : Nat) < (i 0 : Nat) / 2000 * 2000 + 2000
    omega
  | ⟨1, _⟩ =>
    show win0_6.index ⟨(i 0 : Nat) / 2000, ht⟩ (1 : Fin 2) * 256 ≤ (i 1 : Nat)
      ∧ (i 1 : Nat) < win0_6.index ⟨(i 0 : Nat) / 2000, ht⟩ (1 : Fin 2) * 256 + 256
    rw [e61]
    omega

/-- THE OUTPUT ARRAY when the region is left: the layer of the arrays the region was entered with. -/
theorem final (c : Dev nD) : (dat0 V c).arrAt 6 cfg0.N = G V c :=
  (dat0 V c).arrAt_eq_of_cover 6 (G V c) (fun t _ => flushed_eq V c t) (cover c)

end Cert.KernelIdeal.Layer1

end
-- ==== Proof.Region2.lean ====
/-
  The second layer's region, with the classifier fused in: what its output array holds when the region is left.

  Point t of its 25 takes rows [2000·t, 2000·t + 2000) of the summed neighbour rows, of the scale column and of the first
  layer's output, the two weight matrices, the bias row, the padded classifier weights [256, 128] and the padded
  classifier bias row whole, and writes rows [2000·t, 2000·t + 2000) of the padded logits [50000, 128]. Entry (p, q) of
  its block is the sum over the 256 hidden units k of (the layer's entry (p, k)) · Wc(k, q), plus bc(q): the hidden
  activations are never written anywhere. Block t is block t of one function of the whole arrays, and the blocks tile
  the output.
-/
import proofs.«153080_j51977694216572_2_alg».proof.Proof.Gen.KernelIdeal.Frame
import proofs.«153080_j51977694216572_2_alg».proof.Proof.LibSageLayer
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)
open SageLayer

/-- The second layer's entry (r, k) from the whole arrays. -/
def hiddenAt (S : S50000x256.Idx → EReal) (inv : S50000x1.Idx → EReal) (H : S50000x256.Idx → EReal)
    (Wl : S256x256.Idx → EReal) (b : S1x256.Idx → EReal) (Wr : S256x256.Idx → EReal) (r : Fin 50000) (k : Fin 256) : EReal :=
  entry (fun k' : Fin 256 => S (ix2 r k') * inv (ix2 r (0 : Fin 1))) (fun k' => Wl (ix2 k' k))
    (fun k' => H (ix2 r k')) (fun k' => Wr (ix2 k' k)) (b (ix2 (0 : Fin 1) k))

/-- The padded logits' entry (r, q). -/
def logitAt (S : S50000x256.Idx → EReal) (inv : S50000x1.Idx → EReal) (H : S50000x256.Idx → EReal)
    (Wl : S256x256.Idx → EReal) (b : S1x256.Idx → EReal) (Wr : S256x256.Idx → EReal)
    (Wc : S256x128.Idx → EReal) (bc : S1x128.Idx → EReal) (r : Fin 50000) (q : Fin 128) : EReal :=
  (∑ k : Fin 256, hiddenAt S inv H Wl b Wr r k * Wc (ix2 k q)) + bc (ix2 (0 : Fin 1) q)

/-- The padded logits. -/
def logitArr (S : S50000x256.Idx → EReal) (inv : S50000x1.Idx → EReal) (H : S50000x256.Idx → EReal)
    (Wl : S256x256.Idx → EReal) (b : S1x256.Idx → EReal) (Wr : S256x256.Idx → EReal)
    (Wc : S256x128.Idx → EReal) (bc : S1x128.Idx → EReal) : S50000x128.Idx → EReal :=
  fun i => logitAt S inv H Wl b Wr Wc bc ⟨(i 0).val, idx2_lt0 i⟩ ⟨(i 1).val, idx2_lt1 i⟩

theorem logitArr_apply (S : S50000x256.Idx → EReal) (inv : S50000x1.Idx → EReal) (H : S50000x256.Idx → EReal)
    (Wl : S256x256.Idx → EReal) (b : S1x256.Idx → EReal) (Wr : S256x256.Idx → EReal)
    (Wc : S256x128.Idx → EReal) (bc : S1x128.Idx → EReal) (r : Fin 50000) (q : Fin 128) :
    logitArr S inv H Wl b Wr Wc bc (ix2 r q) = logitAt S inv H Wl b Wr Wc bc r q := rfl

theorem hz : (![0, 0] : Fin 2 → Nat) = fun _ => 0 := funext fun a => by fin_cases a <;> rfl

/-- The body's result at entry (p, q) of its block, from the eight blocks it loads. -/
theorem out_apply (x0 : FVec Ideal S2000x256 .f32) (x1 : FVec Ideal S2000x1 .f32) (x2 : FVec Ideal S2000x256 .bf16)
    (x3 : FVec Ideal S256x256 .f32) (x4 : FVec Ideal S1x256 .f32) (x5 : FVec Ideal S256x256 .f32)
    (x6 : FVec Ideal S256x128 .f32) (x7 : FVec Ideal S1x128 .f32) (p : Fin 2000) (q : Fin 128) :
    out1_8 (F := Ideal) x0 x1 x2 x3 x4 x5 x6 x7 (ix2 p q)
      = (∑ k : Fin 256,
          entry (fun k' : Fin 256 => x0 (ix2 p k') * x1 (ix2 p (0 : Fin 1))) (fun k' => x3 (ix2 k' k))
            (fun k' => x2 (ix2 p k')) (fun k' => x5 (ix2 k' k)) (x4 (ix2 (0 : Fin 1) k)) * x6 (ix2 k q))
        + x7 (ix2 (0 : Fin 1) q) := by
  unfold out1_8
  rw [View.canon_unit_zero hz]
  simp only [View.ld_unit_zero (S := S2000x256) hz, View.ld_unit_zero (S := S2000x1) hz,
    View.ld_unit_zero (S := S256x256) hz, View.ld_unit_zero (S := S1x256) hz,
    View.ld_unit_zero (S := S256x128) hz, View.ld_unit_zero (S := S1x128) hz]
  unfold k1_pay1
  refine (rowsBias_apply dot_S2000x256_S256x128_S2000x128_1_0_0_1_n_n rfl _ x6 x7 _ _ _ _ p q).trans ?_
  refine congrArg (· + x7 (ix2 (0 : Fin 1) q)) (Finset.sum_congr rfl fun k _ => congrArg (· * x6 (ix2 k q)) ?_)
  refine (truncf_apply (ψ := FTy.bf16) _ bitsLt_bf16_f32 (ix2 p k)).trans ?_
  refine (body_apply dot_S2000x256_S256x256_S2000x256_1_0_0_1_n_n rfl x0 x1
    (shapeCast S2000x256 x2 shapeCasts_S2000x256_S2000x256) x3 x5 x4 _ _ _ _ _ _ p k).trans ?_
  rw [shapeCast_self x2 shapeCasts_S2000x256_S2000x256]

/-- The printed index maps over the grid: the three row windows and the output move with the point along the rows;
    the weights and the bias rows stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row p of point t's block is row 2000·t + p of the array. -/
def row (t : Fin cfg1.N) (p : Fin 2000) : Fin 50000 :=
  ⟨t.val * 2000 + p.val, by have h := t.isLt; have hN : cfg1.N = 25 := N_1; omega⟩

variable (V : (c : Dev nD) → (b : Ref sig .tc) → Buf (Elt Ideal) ((c : Thread nD τ).loc b))

theorem read0 (c : Dev nD) (t : Fin cfg1.N) (p : Fin 2000) (k : Fin 256) :
    iblk1 V c 0 t (ix2 p k) = (V c main_v35 : S50000x256.Idx → EReal) (ix2 (row t p) k) := by
  obtain ⟨e0, e1, -⟩ := idx_facts t
  show (V c main_v35 : S50000x256.Idx → EReal) (((cfg1.win 0).blk t).view.emb (ix2 p k)) = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

theorem read1 (c : Dev nD) (t : Fin cfg1.N) (p : Fin 2000) :
    iblk1 V c 1 t (ix2 p (0 : Fin 1)) = (V c main_v12 : S50000x1.Idx → EReal) (ix2 (row t p) (0 : Fin 1)) := by
  obtain ⟨-, -, e0, e1, -⟩ := idx_facts t
  show (V c main_v12 : S50000x1.Idx → EReal) (((cfg1.win 1).blk t).view.emb (ix2 p (0 : Fin 1))) = _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

theorem read2 (c : Dev nD) (t : Fin cfg1.N) (p : Fin 2000) (k : Fin 256) :
    iblk1 V c 2 t (ix2 p k) = (V c main_v24 : S50000x256.Idx → EReal) (ix2 (row t p) k) := by
  obtain ⟨-, -, -, -, e0, e1, -⟩ := idx_facts t
  show (V c main_v24 : S50000x256.Idx → EReal) (((cfg1.win 2).blk t).view.emb (ix2 p k)) = _
  refine congrArg _ (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 256 + 1 * k.val = k.val; rw [e1]; omega

theorem read3 (c : Dev nD) (t : Fin cfg1.N) (k : Fin 256) (q : Fin 256) :
    iblk1 V c 3 t (ix2 k q) = (V c main_arg5 : S256x256.Idx → EReal) (ix2 k q) := by
  obtain ⟨-, -, -, -, -, -, e0, e1, -⟩ := idx_facts t
  show (V c main_arg5 : S256x256.Idx → EReal) (((cfg1.win 3).blk t).view.emb (ix2 k q)) = _
  refine congrArg _ (funext fun a => Fin.ext ?_)
  match a with
  | ⟨0, _⟩ => show win1_3.index t (0 : Fin 2) * 256 + 1 * k.val = k.val; rw [e0]; omega
  | ⟨1, _⟩ => show win1_3.index t (1 : Fin 2) * 256 + 1 * q.val = q.val; rw [e1]; omega

theorem read4 (c : Dev nD) (t : Fin cfg1.N) (q : Fin 256) :
    iblk1 V c 4 t (ix2 (0 : Fin 1) q) = (V c main_v36 : S1x256.Idx → EReal) (ix2 (0 : Fin 1) q) := by
  obtain ⟨-, -, -, -, -, -, -, -, e0, e1, -⟩ := idx_facts t
  show (V c main_v36 : S1x256.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = 0; rw [e0]
  | ⟨1, _⟩ => show win1_4.index t (1 : Fin 2) * 256 + 1 * q.val = q.val; rw [e1]; omega

theorem read5 (c : Dev nD) (t : Fin cfg1.N) (k : Fin 256) (q : Fin 256) :
    iblk1 V c 5 t (ix2 k q) = (V c main_arg7 : S256x256.Idx → EReal) (ix2 k q) := by
  obtain ⟨-, -, -, -, -, -, -, -, -, -, e0, e1, -⟩ := idx_facts t
  show (V c main_arg7 : S256x256.Idx → EReal) (((cfg1.win 5).blk t).view.emb (ix2 k q)) = _
  refine congrArg _ (funext fun a => Fin.ext ?_)
  match a with
  | ⟨0, _⟩ => show win1_5.index t (0 : Fin 2) * 256 + 1 * k.val = k.val; rw [e0]; omega
  | ⟨1, _⟩ => show win1_5.index t (1 : Fin 2) * 256 + 1 * q.val = q.val; rw [e1]; omega

theorem read6 (c : Dev nD) (t : Fin cfg1.N) (k : Fin 256) (q : Fin 128) :
    iblk1 V c 6 t (ix2 k q) = (V c main_v39 : S256x128.Idx → EReal) (ix2 k q) := by
  obtain ⟨-, -, -, -, -, -, -, -, -, -, -, -, e0, e1, -⟩ := idx_facts t
  show (V c main_v39 : S256x128.Idx → EReal) (((cfg1.win 6).blk t).view.emb (ix2 k q)) = _
  refine congrArg _ (funext fun a => Fin.ext ?_)
  match a with
  | ⟨0, _⟩ => show win1_6.index t (0 : Fin 2) * 256 + 1 * k.val = k.val; rw [e0]; omega
  | ⟨1, _⟩ => show win1_6.index t (1 : Fin 2) * 128 + 1 * q.val = q.val; rw [e1]; omega

theorem read7 (c : Dev nD) (t : Fin cfg1.N) (q : Fin 128) :
    iblk1 V c 7 t (ix2 (0 : Fin 1) q) = (V c main_v43 : S1x128.Idx → EReal) (ix2 (0 : Fin 1) q) := by
  obtain ⟨-, -, -, -, -, -, -, -, -, -, -, -, -, -, e0, e1, -⟩ := idx_facts t
  show (V c main_v43 : S1x128.Idx → EReal) (((cfg1.win 7).blk t).view.emb (ix2 (0 : Fin 1) q)) = _
  refine congrArg _ (funext fun a => Fin.ext ?_)
  match a with
  | ⟨0, _⟩ => show win1_7.index t (0 : Fin 2) * 1 + 1 * 0 = 0; rw [e0]
  | ⟨1, _⟩ => show win1_7.index t (1 : Fin 2) * 128 + 1 * q.val = q.val; rw [e1]; omega

/-- The padded logits of the arrays as the region finds them. -/
abbrev G (c : Dev nD) : S50000x128.Idx → EReal :=
  logitArr (V c main_v35) (V c main_v12) (V c main_v24) (V c main_arg5) (V c main_v36) (V c main_arg7)
    (V c main_v39) (V c main_v43)

/-- What point t writes back is block t of the padded logits. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  funext j
  obtain ⟨p, q, rfl⟩ : ∃ (p : Fin 2000) (q : Fin 128), j = ix2 p q := ⟨j 0, j 1, eq_ix2 j⟩
  have he : ((cfg1.win 8).blk t).view.emb (ix2 p q) = (ix2 (row t p) q : S50000x128.Idx) := by
    obtain ⟨-, -, -, -, -, -, -, -, -, -, -, -, -, -, -, -, e0, e1⟩ := idx_facts t
    funext a; apply Fin.ext
    match a with
    | ⟨0, _⟩ => show win1_8.index t (0 : Fin 2) * 2000 + 1 * p.val = t.val * 2000 + p.val; rw [e0]; omega
    | ⟨1, _⟩ => show win1_8.index t (1 : Fin 2) * 128 + 1 * q.val = q.val; rw [e1]; omega
  show out1_8 (F := Ideal) (iblk1 V c 0 t) (iblk1 V c 1 t) (iblk1 V c 2 t) (iblk1 V c 3 t) (iblk1 V c 4 t) (iblk1 V c 5 t)
      (iblk1 V c 6 t) (iblk1 V c 7 t) (ix2 p q)
    = G V c (((cfg1.win 8).blk t).view.emb (ix2 p q))
  rw [he]
  refine (out_apply _ _ _ _ _ _ _ _ p q).trans ?_
  show _ = logitAt _ _ _ _ _ _ _ _ (row t p) q
  unfold logitAt hiddenAt
  rw [read7 V c t q]
  refine congrArg (· + _) (Finset.sum_congr rfl fun k _ => ?_)
  rw [read6 V c t k q]
  refine congrArg (· * _) ?_
  exact entry_congr (fun k' => by rw [read0 V c t p k', read1 V c t p]) (fun k' => read3 V c t k' k)
    (fun k' => read2 V c t p k') (fun k' => read5 V c t k' k) (read4 V c t k)

/-- The 25 blocks tile the output: row r is in the block of point r / 2000. -/
theorem cover (c : Dev nD) (i : ((cfg1.win 8).arr.view.loc (c.tc : Thread nD τ)).2.ty.Idx) :
    ∃ t : Fin cfg1.N, (cfg1.win 8).flush t = true ∧ i ∈ ((cfg1.win 8).blk t).view.set := by
  have hi0 : (i 0 : Nat) < 50000 := (i 0).isLt
  have hi1 : (i 1 : Nat) < 128 := (i 1).isLt
  have hN : grid1.N = 25 := N_1
  have ht : (i 0 : Nat) / 2000 < cfg1.N := by show _ < grid1.N; omega
  obtain ⟨-, -, -, -, -, -, -, -, -, -, -, -, -, -, -, -, e0, e1⟩ := idx_facts ⟨(i 0 : Nat) / 2000, ht⟩
  refine ⟨⟨(i 0 : Nat) / 2000, ht⟩, flush1_8 _, ?_⟩
  show i ∈ ((View.whole main_v44).slice (win1_8.rect ⟨(i 0 : Nat) / 2000, ht⟩)).set
  rw [View.set_slice_whole, Rect.mem_set_unit]
  intro a
  match a with
  | ⟨0, _⟩ =>
    show win1_8.index ⟨(i 0 : Nat) / 2000, ht⟩ (0 : Fin 2) * 2000 ≤ (i 0 : Nat)
      ∧ (i 0 : Nat) < win1_8.index ⟨(i 0 : Nat) / 2000, ht⟩ (0 : Fin 2) * 2000 + 2000
    rw [e0]
    show (i 0 : Nat) / 2000 * 2000 ≤ (i 0 : Nat) ∧ (i 0 : Nat) < (i 0 : Nat) / 2000 * 2000 + 2000
    omega
  | ⟨1, _⟩ =>
    show win1_8.index ⟨(i 0 : Nat) / 2000, ht⟩ (1 : Fin 2) * 128 ≤ (i 1 : Nat)
      ∧ (i 1 : Nat) < win1_8.index ⟨(i 0 : Nat) / 2000, ht⟩ (1 : Fin 2) * 128 + 128
    rw [e1]
    omega

/-- THE OUTPUT ARRAY when the region is left: the padded logits of the arrays the region was entered with. -/
theorem final (c : Dev nD) : (dat1 V c).arrAt 8 cfg1.N = G V c :=
  (dat1 V c).arrAt_eq_of_cover 8 (G V c) (fun t _ => flushed_eq V c t) (cover c)

end Cert.KernelIdeal.Layer2

end
-- ==== Proof.HostChain.lean ====
/-
  What the kernel program's two regions find in their arrays, and what the program returns.

  The buffers' contents at each boundary are a fold from the launch memory. Read at the buffers the regions take:
  before the first region, the summed neighbour rows are the reference's own neighbour sum of the features and the edge
  list, and the scale column is the reciprocal of the reference's floored edge counts, laid as a column; between the
  regions, the first region's output is gathered along the same edges and accumulated the same way, the scale column is
  still there, and the classifier's weights and bias have been written into the leading corner of zero arrays; at the
  end the result is the first 16 columns of the second region's output. The gathers and accumulating scatters are the
  same operations on both sides and are carried as the reference's stage functions, unopened.
-/
import proofs.«153080_j51977694216572_2_alg».proof.Proof.Gen.KernelIdeal.Frame
import proofs.«153080_j51977694216572_2_alg».proof.Proof.RefEntry
import proofs.«153080_j51977694216572_2_alg».proof.Proof.Region1
import proofs.«153080_j51977694216572_2_alg».proof.Proof.Region2
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Read Cert.ReferenceIdeal.RefValue

variable (m : (ℓ : Loc nD τ sig) → Buf (Elt Ideal) ℓ) (ρ : Dev nD → PrngReg) (c : Dev nD)

/-! ## Before the first region -/

theorem w1_v22 : (W1 m ρ c (Proc.devRef .tc main_v22) : S50000x128.Idx → EReal)
    = val_main_v13 (F := Ideal) (m ((c : Thread nD τ).loc main_arg0)) (m ((c : Thread nD τ).loc main_arg1)) := by
  show StableHlo.after hostOps0 (W0 m ρ c) (Proc.devRef .tc main_v22) = _
  after_results_simp
  rfl

theorem w1_v12 : (W1 m ρ c (Proc.devRef .tc main_v12) : S50000x1.Idx → EReal)
    = shapeCast S50000x1 (Host.divf (F := Ideal) (s := S50000) (φ := FTy.f32) (val_main_v18 (F := Ideal))
        (val_main_v19 (F := Ideal) (m ((c : Thread nD τ).loc main_arg1)))) shapeCasts_S50000_S50000x1 := by
  show StableHlo.after hostOps0 (W0 m ρ c) (Proc.devRef .tc main_v12) = _
  after_results_simp
  rfl

theorem w1_v23 : (W1 m ρ c (Proc.devRef .tc main_v23) : S1x256.Idx → EReal)
    = shapeCast S1x256 (m ((c : Thread nD τ).loc main_arg3) : S256.Idx → EReal) shapeCasts_S256_S1x256 := by
  show StableHlo.after hostOps0 (W0 m ρ c) (Proc.devRef .tc main_v23) = _
  after_results_simp
  rfl

theorem w1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl

theorem w1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem w1_arg0 : W1 m ρ c (Proc.devRef .tc main_arg0) = m ((c : Thread nD τ).loc main_arg0) := by
  show StableHlo.after hostOps0 (W0 m ρ c) (Proc.devRef .tc main_arg0) = _
  after_results_simp <;> rfl
theorem w1_arg2 : W1 m ρ c (Proc.devRef .tc main_arg2) = m ((c : Thread nD τ).loc main_arg2) := by
  show StableHlo.after hostOps0 (W0 m ρ c) (Proc.devRef .tc main_arg2) = _
  after_results_simp <;> rfl
theorem w1_arg4 : W1 m ρ c (Proc.devRef .tc main_arg4) = m ((c : Thread nD τ).loc main_arg4) := by
  show StableHlo.after hostOps0 (W0 m ρ c) (Proc.devRef .tc main_arg4) = _
  after_results_simp <;> rfl
theorem w1_arg5 : W1 m ρ c (Proc.devRef .tc main_arg5) = m ((c : Thread nD τ).loc main_arg5) := by
  show StableHlo.after hostOps0 (W0 m ρ c) (Proc.devRef .tc main_arg5) = _
  after_results_simp <;> rfl
theorem w1_arg6 : W1 m ρ c (Proc.devRef .tc main_arg6) = m ((c : Thread nD τ).loc main_arg6) := by
  show StableHlo.after hostOps0 (W0 m ρ c) (Proc.devRef .tc main_arg6) = _
  after_results_simp <;> rfl
theorem w1_arg7 : W1 m ρ c (Proc.devRef .tc main_arg7) = m ((c : Thread nD τ).loc main_arg7) := by
  show StableHlo.after hostOps0 (W0 m ρ c) (Proc.devRef .tc main_arg7) = _
  after_results_simp <;> rfl
theorem w1_arg8 : W1 m ρ c (Proc.devRef .tc main_arg8) = m ((c : Thread nD τ).loc main_arg8) := by
  show StableHlo.after hostOps0 (W0 m ρ c) (Proc.devRef .tc main_arg8) = _
  after_results_simp <;> rfl
theorem w1_arg9 : W1 m ρ c (Proc.devRef .tc main_arg9) = m ((c : Thread nD τ).loc main_arg9) := by
  show StableHlo.after hostOps0 (W0 m ρ c) (Proc.devRef .tc main_arg9) = _
  after_results_simp <;> rfl

/-! ## After the first region -/

/-- The first region's output array is the first layer of what the region was entered with. -/
theorem w2_v24 : W2 m ρ c (Proc.devRef .tc main_v24) = Layer1.G (V1 m ρ) c :=
  (W2_arr m ρ c 6).trans (Layer1.final (V1 m ρ) c)

/-- The scale column is an input of the first region: left as entered. -/
theorem w2_v12 : W2 m ρ c (Proc.devRef .tc main_v12) = W1 m ρ c (Proc.devRef .tc main_v12) :=
  (W2_arr m ρ c 1).trans (((dat0 (V1 m ρ) c).arrAt_in 1 rfl _).trans (A_eq0 (V1 m ρ) c 1))

theorem w2_v1 : W2 m ρ c (Proc.devRef .tc main_v1) = val_main_v1 (F := Ideal) (m ((c : Thread nD τ).loc main_arg1)) :=
  (W2_of_ne m ρ c main_v1 (by decide)).trans (w1_v1 m ρ c)
theorem w2_v3 : W2 m ρ c (Proc.devRef .tc main_v3) = val_main_v3 (F := Ideal) (m ((c : Thread nD τ).loc main_arg1)) :=
  (W2_of_ne m ρ c main_v3 (by decide)).trans (w1_v3 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)
theorem w2_arg8 : W2 m ρ c (Proc.devRef .tc main_arg8) = m ((c : Thread nD τ).loc main_arg8) :=
  (W2_of_ne m ρ c main_arg8 (by decide)).trans (w1_arg8 m ρ c)
theorem w2_arg9 : W2 m ρ c (Proc.devRef .tc main_arg9) = m ((c : Thread nD τ).loc main_arg9) :=
  (W2_of_ne m ρ c main_arg9 (by decide)).trans (w1_arg9 m ρ c)

/-! ## Before the second region -/

/-- The second neighbour sum: the first region's output gathered along the sources and accumulated onto the targets. -/
theorem w3_v35 : (W3 m ρ c (Proc.devRef .tc main_v35) : S50000x256.Idx → EReal)
    = seg2 (W2 m ρ c (Proc.devRef .tc main_v24)) (m ((c : Thread nD τ).loc main_arg1)) := by
  show StableHlo.after hostOps1 (W2 m ρ c) (Proc.devRef .tc main_v35) = _
  after_results_simp
  rw [w2_v1 m ρ c, w2_v3 m ρ c]
  rfl

theorem w3_v12 : W3 m ρ c (Proc.devRef .tc main_v12) = W1 m ρ c (Proc.devRef .tc main_v12) := by
  show StableHlo.after hostOps1 (W2 m ρ c) (Proc.devRef .tc main_v12) = _
  after_results_simp
  exact w2_v12 m ρ c

theorem w3_v24 : W3 m ρ c (Proc.devRef .tc main_v24) = W2 m ρ c (Proc.devRef .tc main_v24) := by
  show StableHlo.after hostOps1 (W2 m ρ c) (Proc.devRef .tc main_v24) = _
  after_results_simp <;> rfl

theorem w3_arg5 : W3 m ρ c (Proc.devRef .tc main_arg5) = m ((c : Thread nD τ).loc main_arg5) := by
  show StableHlo.after hostOps1 (W2 m ρ c) (Proc.devRef .tc main_arg5) = _
  after_results_simp
  exact w2_arg5 m ρ c
theorem w3_arg7 : W3 m ρ c (Proc.devRef .tc main_arg7) = m ((c : Thread nD τ).loc main_arg7) := by
  show StableHlo.after hostOps1 (W2 m ρ c) (Proc.devRef .tc main_arg7) = _
  after_results_simp
  exact w2_arg7 m ρ c

theorem w3_v36 : (W3 m ρ c (Proc.devRef .tc main_v36) : S1x256.Idx → EReal)
    = shapeCast S1x256 (m ((c : Thread nD τ).loc main_arg6) : S256.Idx → EReal) shapeCasts_S256_S1x256 := by
  show StableHlo.after hostOps1 (W2 m ρ c) (Proc.devRef .tc main_v36) = _
  after_results_simp
  rw [w2_arg6 m ρ c]
  rfl

/-- The classifier's weights in the leading 16 columns of a zero array. -/
theorem w3_v39 : (W3 m ρ c (Proc.devRef .tc main_v39) : S256x128.Idx → EReal)
    = Host.scatter scatter_S256x128_S1_S256x16_01_n_1_0 (fun _ b => b)
        (broadcastInDim S256x128 ![] bcast_S_S256x128 (constant (F := Ideal) S_ .f32 0x00000000#32))
        (broadcastInDim S1 ![] bcast_S_S1 (constantI S_ 32 0#32))
        (m ((c : Thread nD τ).loc main_arg8) : S256x16.Idx → EReal) := by
  show StableHlo.after hostOps1 (W2 m ρ c) (Proc.devRef .tc main_v39) = _
  after_results_simp
  rw [w2_arg8 m ρ c]

/-- The classifier's bias in the leading 16 entries of a zero vector, as a row. -/
theorem w3_v43 : (W3 m ρ c (Proc.devRef .tc main_v43) : S1x128.Idx → EReal)
    = shapeCast S1x128 (Host.scatter scatter_S128_S1_S16_0_n_0_0 (fun _ b => b)
        (broadcastInDim S128 ![] bcast_S_S128 (constant (F := Ideal) S_ .f32 0x00000000#32))
        (broadcastInDim S1 ![] bcast_S_S1 (constantI S_ 32 0#32))
        (m ((c : Thread nD τ).loc main_arg9) : S16.Idx → EReal)) shapeCasts_S128_S1x128 := by
  show StableHlo.after hostOps1 (W2 m ρ c) (Proc.devRef .tc main_v43) = _
  after_results_simp
  rw [w2_arg9 m ρ c]
  rfl

/-! ## After the second region, and the result -/

/-- The second region's output array is the padded logits of what the region was entered with. -/
theorem w4_v44 : W4 m ρ c (Proc.devRef .tc main_v44) = Layer2.G (V3 m ρ) c :=
  (W4_arr m ρ c 8).trans (Layer2.final (V3 m ρ) c)

/-- The result: the first 16 columns of the padded logits. -/
theorem w5_v45 : (W5 m ρ c (Proc.devRef .tc main_v45) : S50000x16.Idx → EReal)
    = extractStridedSlice S50000x16 ![0, 0] (Layer2.G (V3 m ρ) c) slices_S50000x128_S50000x16_0_0 := by
  show StableHlo.after hostOps2 (W4 m ρ c) (Proc.devRef .tc main_v45) = _
  after_results_simp
  rw [w4_v44 m ρ c]

end Cert.KernelIdeal.HostChain

end
-- ==== Proof.LibRealArrays.lean ====
/-
  Arrays of extended reals whose entries are all real numbers.

  On the extended reals the distributive law and the exchange of a product with a sum fail at the
  infinities, so a law that needs them is applied only to arrays known to hold real numbers. This
  file says which array operations keep that property: an operation that re-lays entries
  (transpose, slice, broadcast, concatenate, gather) returns entries of its operands; a pointwise
  sum, difference, product, negation, maximum, exponential or hyperbolic tangent of real numbers is
  a real number; a quotient by a POSITIVE real and the reciprocal square root of a POSITIVE real are
  real numbers; a finite sum of real numbers is a real number, hence so is every entry of a matrix
  product and of an accumulating scatter of real arrays.
-/
import Idealize.ShloMosaic.PureOps.Ideal
import Idealize.ShloMosaic.PureOps.Ideal.Laws

noncomputable section

namespace RealArrays

open Idealize.ShloMosaic

/-! ## Real and positive extended reals -/

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- The maximum of a real number and a positive real number is a positive real number. -/
theorem IsPos.max_right {x y : EReal} (hx : IsReal x) (hy : IsPos y) : IsPos (max x y) := by
  rcases le_total x y with h | h
  · rw [max_eq_right h]; exact hy
  · rw [max_eq_left h]
    obtain ⟨a, rfl⟩ := hx; obtain ⟨b, hb, rfl⟩ := hy
    exact ⟨a, lt_of_lt_of_le hb (by exact_mod_cast h), rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

theorem IsPos.exp {x : EReal} (hx : IsReal x) : IsPos (Ideal.exp x) := by
  obtain ⟨a, rfl⟩ := hx; exact ⟨Real.exp a, Real.exp_pos a, Ideal.exp_coe a⟩

theorem IsReal.tanh {x : EReal} (hx : IsReal x) : IsReal (Ideal.tanh x) := by
  obtain ⟨a, rfl⟩ := hx; exact ⟨Real.tanh a, Ideal.tanh_coe a⟩

/-- A real number over a positive real number is a real number. -/
theorem IsReal.div_pos {x y : EReal} (hx : IsReal x) (hy : IsPos y) : IsReal (Ideal.div x y) := by
  obtain ⟨b, hb, rfl⟩ := hy
  rw [Ideal.div_coe (ne_of_gt hb)]
  exact hx.mul (isReal_coe _)

/-- The reciprocal square root of a positive real number is a real number. -/
theorem IsReal.rsqrt_pos {x : EReal} (hx : IsPos x) : IsReal (Ideal.rsqrt x) := by
  obtain ⟨a, ha, rfl⟩ := hx
  rw [Ideal.rsqrt_coe, if_neg (not_lt.2 ha.le), if_neg (ne_of_gt ha)]
  exact isReal_coe _

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s (fun _ => ?_) (fun a s ha ih h => ?_)
  · rw [Finset.sum_empty]; exact isReal_zero
  · rw [Finset.sum_insert ha]
    exact (h a (Finset.mem_insert_self a s)).add (ih fun i hi => h i (Finset.mem_insert_of_mem hi))

/-- The coercion of a finite sum of real numbers is the sum of the coercions. -/
theorem coe_sum {ι : Type*} (s : Finset ι) (f : ι → ℝ) :
    ((∑ i ∈ s, f i : ℝ) : EReal) = ∑ i ∈ s, (f i : EReal) := by
  classical
  refine Finset.induction_on s ?_ (fun a s ha ih => ?_)
  · rw [Finset.sum_empty, Finset.sum_empty]; exact EReal.coe_zero
  · rw [Finset.sum_insert ha, Finset.sum_insert ha, EReal.coe_add, ih]

/-! ## Arrays -/

variable {s t : Shape} {φ ψ : FTy}

/-- Every entry of the array is a real number. -/
def AllReal (v : s.Idx → EReal) : Prop := ∀ i, IsReal (v i)

/-- Every entry of the array is a positive real number. -/
def AllPos (v : s.Idx → EReal) : Prop := ∀ i, IsPos (v i)

theorem AllPos.allReal {v : s.Idx → EReal} (h : AllPos v) : AllReal v := fun i => (h i).isReal

/-! ### Pointwise operations at the ideal instance -/

theorem AllReal.addf {a b : FVec Ideal s φ} (ha : AllReal a) (hb : AllReal b) : AllReal (addf a b) :=
  fun i => (ha i).add (hb i)

theorem AllReal.subf {a b : FVec Ideal s φ} (ha : AllReal a) (hb : AllReal b) : AllReal (subf a b) :=
  fun i => (ha i).sub (hb i)

theorem AllReal.mulf {a b : FVec Ideal s φ} (ha : AllReal a) (hb : AllReal b) : AllReal (mulf a b) :=
  fun i => (ha i).mul (hb i)

theorem AllReal.maximumf {a b : FVec Ideal s φ} (ha : AllReal a) (hb : AllReal b) : AllReal (maximumf a b) :=
  fun i => (ha i).max (hb i)

theorem AllPos.maximumf_right {a b : FVec Ideal s φ} (ha : AllReal a) (hb : AllPos b) : AllPos (maximumf a b) :=
  fun i => IsPos.max_right (ha i) (hb i)

theorem AllPos.addf {a b : FVec Ideal s φ} (ha : AllPos a) (hb : AllPos b) : AllPos (addf a b) :=
  fun i => (ha i).add (hb i)

theorem AllReal.hostNegf {a : FVec Ideal s φ} (ha : AllReal a) : AllReal (Host.negf a) :=
  fun i => (ha i).neg

theorem AllPos.hostExp {a : FVec Ideal s φ} (ha : AllReal a) : AllPos (Host.exp a) :=
  fun i => IsPos.exp (ha i)

theorem AllReal.hostTanh {a : FVec Ideal s φ} (ha : AllReal a) : AllReal (Host.tanh a) :=
  fun i => (ha i).tanh

theorem AllReal.hostDivf {a b : FVec Ideal s φ} (ha : AllReal a) (hb : AllPos b) : AllReal (Host.divf a b) :=
  fun i => (ha i).div_pos (hb i)

theorem AllReal.hostRsqrt {a : FVec Ideal s φ} (ha : AllPos a) : AllReal (Host.rsqrt a) :=
  fun i => IsReal.rsqrt_pos (ha i)

/-- A selection between two real arrays is a real array, whatever the mask. -/
theorem AllReal.select {c : IVec s 1} {a b : s.Idx → EReal} (ha : AllReal a) (hb : AllReal b) :
    AllReal (select c a b) := fun i => by
  show IsReal (Scalar.select (c i) (a i) (b i))
  unfold Scalar.select
  split
  · exact ha i
  · exact hb i

/-! ### Operations that re-lay entries -/

theorem AllReal.transpose {x : s.Idx → EReal} (hx : AllReal x) (perm : List (Fin s.rank)) (h : s.Transposes perm t) :
    AllReal (transpose t perm x h) := fun _ => hx _

theorem AllReal.broadcastInDim {x : s.Idx → EReal} (hx : AllReal x) (dims : Fin s.rank → Fin t.rank)
    (h : s.BroadcastsInDim t dims) : AllReal (broadcastInDim t dims h x) := fun _ => hx _

theorem AllPos.broadcastInDim {x : s.Idx → EReal} (hx : AllPos x) (dims : Fin s.rank → Fin t.rank)
    (h : s.BroadcastsInDim t dims) : AllPos (broadcastInDim t dims h x) := fun _ => hx _

theorem AllReal.extractStridedSlice {x : s.Idx → EReal} (hx : AllReal x) (off : Fin s.rank → Nat) (h : s.Slices off t) :
    AllReal (extractStridedSlice t off x h) := fun _ => hx _

theorem AllReal.shapeCast {x : s.Idx → EReal} (hx : AllReal x) (h : s.ShapeCasts t) :
    AllReal (shapeCast t x h) := fun _ => hx _

/-- A gather reads entries of its operand, whatever the indices. -/
theorem AllReal.hostGather {si : Shape} {w : Nat} {x : s.Idx → EReal} (hx : AllReal x) (d : GatherDims s si t)
    (idx : IVec si w) : AllReal (Host.gather d x idx) := fun _ => hx _

/-- A concatenation of real arrays is a real array. -/
theorem AllReal.concatenate (a : Fin t.rank) (xs : List ((s : Shape) × (s.Idx → EReal)))
    (h : Shape.Concatenates (xs.map (·.1)) t a) (hx : ∀ p ∈ xs, AllReal p.2) : AllReal (concatenate t a xs h) := by
  intro j
  unfold Idealize.ShloMosaic.concatenate
  exact hx _ (List.getElem_mem _) _

/-! ### Sums: the host's matrix product and its accumulating scatter -/

/-- Every entry of the host's product of two real arrays is a finite sum of products of real numbers. -/
theorem AllReal.hostDotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- Every entry of an accumulating scatter of real updates onto a real array is that array's entry plus a
    finite sum of updates. -/
theorem AllReal.hostScatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (IsReal.sum _ _ fun j _ => hu j)

end RealArrays

end
-- ==== Proof.LibMeanLaw.lean ====
/-
  The mean over incoming edges, written two ways.

  A graph layer averages the rows gathered along the edges: the sum S(v, k) over the edges into node v is scaled by
  the number of those edges, floored at one. One program divides, S(v, k) / c(v); the other first takes the reciprocal
  1 / c(v) of every count and then multiplies, S(v, k) · (1 / c(v)). On the extended reals a quotient by a NONZERO REAL
  is the product with its reciprocal whatever the numerator, the infinities included, so the two agree at every entry
  as soon as every count is a positive real number. The counts are: each is the maximum with one of a sum of ones
  added onto zero, a real number that is at least one. Nothing is asked of the summed rows S themselves.
-/
import Idealize.ShloMosaic.PureOps.Ideal
import Idealize.ShloMosaic.PureOps.Ideal.Laws
import proofs.«153080_j51977694216572_2_alg».proof.Proof.LibRealArrays

noncomputable section

namespace SageMean

open Idealize.ShloMosaic RealArrays

/-! ## The two words the counts are built from -/

/-- The word of 1.0 denotes the real number one. -/
theorem ofBits_one_f32 : Ideal.ofBits .f32 0x3F800000#32 = 1 := by
  simp [Ideal.ofBits, Ideal.ieee, -EReal.coe_mul]; norm_num

/-- One is a positive real. -/
theorem isPos_oneWord : IsPos (Ideal.ofBits .f32 0x3F800000#32) :=
  ⟨1, one_pos, ofBits_one_f32.trans EReal.coe_one.symm⟩

/-- Zero is a real. -/
theorem isReal_zeroWord : IsReal (Ideal.ofBits .f32 0x00000000#32) := by
  rw [Ideal.ofBits_zero_f32]; exact isReal_zero

/-- A scalar constant spread to any shape holds that constant's value at every index. -/
theorem splat_apply {s : Shape} (h : (⟨0, ![]⟩ : Shape).BroadcastsInDim s ![]) (w : BitVec 32) (j : s.Idx) :
    broadcastInDim s ![] h (constant (F := Ideal) ⟨0, ![]⟩ .f32 w) j = Ideal.ofBits .f32 w := rfl

/-! ## The law at one entry -/

/-- x · (1 / c) = x / c for a positive real c and EVERY extended real x. -/
theorem mul_recip_eq_div {x c : EReal} (hc : IsPos c) :
    x * Ideal.div (Ideal.ofBits .f32 0x3F800000#32) c = Ideal.div x c := by
  obtain ⟨r, hr, rfl⟩ := hc
  rw [ofBits_one_f32, Ideal.div_coe (ne_of_gt hr), Ideal.div_coe (ne_of_gt hr), one_mul]

/-! ## The counts are positive reals -/

/-- The number of edges into each node, floored at one: the maximum with an all-ones array of ones accumulated onto
    zeros along any index array is a positive real at every node. -/
theorem allPos_counts {s si u : Shape} {w : Nat} (d : ScatterDims s si u) (idx : IVec si w)
    (zeros ones : FVec Ideal s .f32) (upd : FVec Ideal u .f32)
    (hz : ∀ j, zeros j = Ideal.ofBits .f32 0x00000000#32) (ho : ∀ j, ones j = Ideal.ofBits .f32 0x3F800000#32)
    (hu : ∀ j, upd j = Ideal.ofBits .f32 0x3F800000#32) :
    AllPos (maximumf (Host.scatterAdd d zeros idx upd) ones) :=
  AllPos.maximumf_right
    (AllReal.hostScatterAdd d idx (fun j => by rw [hz j]; exact isReal_zeroWord)
      (fun j => by rw [hu j]; exact isPos_oneWord.isReal))
    (fun j => by rw [ho j]; exact isPos_oneWord)

/-! ## The law for whole arrays -/

/-- Scaling the summed rows by the reciprocal counts is dividing them by the counts: the counts [n] are laid as a
    column [n, 1] and spread along the rows [n, d] the same way on both sides (the two placements may carry different
    proofs of their side conditions: the entry read does not depend on them). -/
theorem mulf_recip_eq_divf {s1 s2 s3 : Shape} (d1 : Fin s1.rank → Fin s2.rank) (h1 h1' : s1.BroadcastsInDim s2 d1)
    (d2 : Fin s2.rank → Fin s3.rank) (h2 h2' : s2.BroadcastsInDim s3 d2)
    (S : FVec Ideal s3 .f32) (ones cnt : FVec Ideal s1 .f32)
    (ho : ∀ j, ones j = Ideal.ofBits .f32 0x3F800000#32) (hc : AllPos cnt) :
    mulf S (broadcastInDim s3 d2 h2 (broadcastInDim s2 d1 h1 (Host.divf ones cnt)))
      = Host.divf S (broadcastInDim s3 d2 h2' (broadcastInDim s2 d1 h1' cnt)) := by
  funext i
  show S i * Ideal.div (ones _) (cnt _) = Ideal.div (S i) (cnt _)
  rw [ho]
  exact mul_recip_eq_div (hc _)

end SageMean

end
-- ==== Proof.LibMeanScale.lean ====
/-
  Scaling by the reciprocal count, read at a row.

  The kernel's program lays the reciprocals 1 / c(v) of the edge counts out as a column [M, 1]; the entry (r, 0) of
  that column is 1 / c(r), and x · (1 / c(r)) = x / c(r) for every extended real x as soon as c(r) is a positive real.
-/
import proofs.«153080_j51977694216572_2_alg».proof.Proof.LibMeanLaw
import proofs.«153080_j51977694216572_2_alg».proof.Proof.LibColumns

noncomputable section

namespace SageMean

open Idealize.ShloMosaic Idealize.ShloMosaic.ValueIdx RealArrays

/-- x times the reciprocal-count column's entry of row r is x divided by the count of row r. -/
theorem scaled_eq {M : ℕ} (x : EReal) (ones cnt : FVec Ideal ⟨1, ![M]⟩ .f32)
    (h : (⟨1, ![M]⟩ : Shape).ShapeCasts ⟨2, ![M, 1]⟩) (r : Fin M)
    (ho : ∀ j, ones j = Ideal.ofBits .f32 0x3F800000#32) (hc : AllPos cnt) :
    x * shapeCast ⟨2, ![M, 1]⟩ (Host.divf ones cnt) h (ix2 r (0 : Fin 1)) = Ideal.div x (cnt (ix1 r)) := by
  rw [shapeCast_a_a1_apply]
  show x * Ideal.div (ones (ix1 r)) (cnt (ix1 r)) = _
  rw [ho]
  exact mul_recip_eq_div (hc _)

end SageMean

end
-- ==== Proof.LibPadScatter.lean ====
/-
  A smaller array written into the leading corner of a larger one.

  The classifier's weights [A, C] are written into columns [0, C) of a zero array [A, B], and its bias [C] into
  entries [0, C) of a zero vector [B]: a scatter whose body returns the update, with ONE start index, the constant 0,
  every axis of the update a window axis. Update (k, q) then lands on entry (k, q) of the larger array — start 0 plus
  the window coordinate on each axis — and no other update lands there, so entry (k, q) with q < C ends holding the
  update's entry (k, q), whatever the larger array held. The scatter is a left fold over the update positions; an
  entry that exactly one position of the list writes ends at what that position wrote.
-/
import Idealize.ShloMosaic.Lib.ValueIdx
import Idealize.ShloMosaic.PureOps.Ideal

noncomputable section

namespace PadScatter

open Idealize.ShloMosaic Idealize.ShloMosaic.ValueIdx

/-! ## A fold of overwrites, read at one entry -/

/-- Steps that leave entry i alone leave it alone. -/
theorem foldl_keep {κ ι α : Type} (step : (ι → α) → κ → (ι → α)) (i : ι) :
    ∀ (L : List κ) (x : ι → α), (∀ r n, n ∈ L → step r n i = r i) → (L.foldl step x) i = x i
  | [], _, _ => rfl
  | a :: L, x, h => by
    rw [List.foldl_cons, foldl_keep step i L (step x a) fun r n hn => h r n (List.mem_cons_of_mem a hn)]
    exact h x a List.mem_cons_self

/-- If position n₀ of a duplicate-free list writes v at entry i and no other position touches entry i, the fold ends
    with v at entry i. -/
theorem foldl_point {κ ι α : Type} (step : (ι → α) → κ → (ι → α)) (i : ι) (v : α) (n₀ : κ)
    (hhit : ∀ r, step r n₀ i = v) :
    ∀ (L : List κ) (x : ι → α), L.Nodup → n₀ ∈ L → (∀ r n, n ∈ L → n ≠ n₀ → step r n i = r i) → (L.foldl step x) i = v
  | [], _, _, h, _ => absurd h List.not_mem_nil
  | a :: L, x, hnd, hmem, hmiss => by
    rw [List.foldl_cons]
    obtain ⟨haL, hndL⟩ := List.nodup_cons.mp hnd
    by_cases ha : a = n₀
    · rw [foldl_keep step i L (step x a) fun r n hn =>
        hmiss r n (List.mem_cons_of_mem a hn) (fun e => haL (by rw [ha, ← e]; exact hn)), ha]
      exact hhit x
    · have hm : n₀ ∈ L := (List.mem_cons.mp hmem).resolve_left fun e => ha e.symm
      exact foldl_point step i v n₀ hhit L (step x a) hndL hm fun r n hn hne =>
        hmiss r n (List.mem_cons_of_mem a hn) hne

/-- A scatter whose body returns the update, read at an entry that exactly one update position lands on. -/
theorem scatter_set_apply {s si u : Shape} {w : Nat} {α : Type} (d : ScatterDims s si u) (x : s.Idx → α) (idx : IVec si w)
    (upd : u.Idx → α) (i : s.Idx) (j₀ : u.Idx) (h₀ : d.resultIdx? j₀ idx = some i)
    (hinj : ∀ j, d.resultIdx? j idx = some i → j = j₀) :
    Host.scatter d (fun _ b => b) x idx upd i = upd j₀ := by
  unfold Host.scatter
  refine foldl_point _ i (upd j₀) (u.rowMajor j₀) (fun r => ?_) (List.finRange u.numel) x (List.nodup_finRange _)
    (List.mem_finRange _) (fun r n _ hne => ?_)
  · show (match d.resultIdx? (u.rowMajor.symm (u.rowMajor j₀)) idx with
      | some i₁ => fun i' => if i' = i₁ then upd (u.rowMajor.symm (u.rowMajor j₀)) else r i'
      | none => r) i = upd j₀
    rw [Equiv.symm_apply_apply, h₀]
    exact if_pos rfl
  · show (match d.resultIdx? (u.rowMajor.symm n) idx with
      | some i₁ => fun i' => if i' = i₁ then upd (u.rowMajor.symm n) else r i'
      | none => r) i = r i
    have hne' : d.resultIdx? (u.rowMajor.symm n) idx ≠ some i := fun e =>
      hne (by rw [← hinj _ e, Equiv.apply_symm_apply])
    generalize d.resultIdx? (u.rowMajor.symm n) idx = o at hne'
    cases o with
    | none => rfl
    | some i₁ => exact if_neg fun e => hne' (congrArg some e.symm)

/-! ## A block written at the origin of a matrix -/

/-- The dimension numbers: operand [A, B], one start index (the column), updates [A, C], both update axes window axes. -/
abbrev cornerDims (A B C : Nat) (wf : ScatterDims.WF ⟨2, ![A, B]⟩ ⟨1, ![1]⟩ ⟨2, ![A, C]⟩ [0, 1] [] [1] 0) :
    ScatterDims ⟨2, ![A, B]⟩ ⟨1, ![1]⟩ ⟨2, ![A, C]⟩ where
  updateWindowDims := [0, 1]
  insertedWindowDims := []
  scatterDimsToOperandDims := [1]
  indexVectorDim := 0
  wf := wf

section Corner
variable {A B C w : Nat} (wf : ScatterDims.WF ⟨2, ![A, B]⟩ ⟨1, ![1]⟩ ⟨2, ![A, C]⟩ [0, 1] [] [1] 0)
  (idx : IVec ⟨1, ![1]⟩ w) (hidx : ∀ z, (idx z).toInt = 0)

theorem start_row (k : Fin A) (q : Fin C) : (cornerDims A B C wf).start (ix2 k q) idx (0 : Fin 2) = 0 := by
  unfold ScatterDims.start
  rw [dif_neg (fun h => absurd (List.mem_singleton.mp h) (by decide : ¬ (0 : Fin 2) = 1))]

include hidx in
theorem start_col (k : Fin A) (q : Fin C) : (cornerDims A B C wf).start (ix2 k q) idx (1 : Fin 2) = 0 := by
  unfold ScatterDims.start
  rw [dif_pos (show (1 : Fin 2) ∈ (cornerDims A B C wf).scatterDimsToOperandDims from List.mem_singleton.mpr rfl)]
  exact hidx _

theorem window_row (k : Fin A) (q : Fin C) : (cornerDims A B C wf).window (ix2 k q) (0 : Fin 2) = k.val := by
  unfold ScatterDims.window
  rw [dif_pos (show (0 : Fin 2) ∈ (cornerDims A B C wf).sKept from List.mem_filter.mpr ⟨List.mem_finRange _, by simp⟩)]
  rfl

theorem window_col (k : Fin A) (q : Fin C) : (cornerDims A B C wf).window (ix2 k q) (1 : Fin 2) = q.val := by
  unfold ScatterDims.window
  rw [dif_pos (show (1 : Fin 2) ∈ (cornerDims A B C wf).sKept from List.mem_filter.mpr ⟨List.mem_finRange _, by simp⟩)]
  rfl

include hidx in
/-- Update (k, q) lands on entry (k, q). -/
theorem resultIdx?_corner (hCB : C ≤ B) (k : Fin A) (q : Fin C) :
    (cornerDims A B C wf).resultIdx? (ix2 k q) idx = some (ix2 k (⟨q.val, lt_of_lt_of_le q.isLt hCB⟩ : Fin B)) := by
  have hs0 := start_row wf idx k q
  have hs1 := start_col wf idx hidx k q
  have hw0 := window_row wf k q
  have hw1 := window_col wf k q
  unfold ScatterDims.resultIdx?
  have h : ∀ a, 0 ≤ (cornerDims A B C wf).start (ix2 k q) idx a + ((cornerDims A B C wf).window (ix2 k q) a : Int)
      ∧ (cornerDims A B C wf).start (ix2 k q) idx a + ((cornerDims A B C wf).window (ix2 k q) a : Int)
        < ((⟨2, ![A, B]⟩ : Shape).size a : Int) := fun a => by
    match a with
    | ⟨0, _⟩ =>
      show 0 ≤ (cornerDims A B C wf).start (ix2 k q) idx (0 : Fin 2) + ((cornerDims A B C wf).window (ix2 k q) (0 : Fin 2) : Int)
        ∧ (cornerDims A B C wf).start (ix2 k q) idx (0 : Fin 2) + ((cornerDims A B C wf).window (ix2 k q) (0 : Fin 2) : Int) < (A : Int)
      rw [hs0, hw0]; have := k.isLt; omega
    | ⟨1, _⟩ =>
      show 0 ≤ (cornerDims A B C wf).start (ix2 k q) idx (1 : Fin 2) + ((cornerDims A B C wf).window (ix2 k q) (1 : Fin 2) : Int)
        ∧ (cornerDims A B C wf).start (ix2 k q) idx (1 : Fin 2) + ((cornerDims A B C wf).window (ix2 k q) (1 : Fin 2) : Int) < (B : Int)
      rw [hs1, hw1]; have := q.isLt; omega
  rw [dif_pos h]
  refine congrArg some (funext fun a => Fin.ext ?_)
  match a with
  | ⟨0, _⟩ =>
    show ((cornerDims A B C wf).start (ix2 k q) idx (0 : Fin 2) + ((cornerDims A B C wf).window (ix2 k q) (0 : Fin 2) : Int)).toNat = k.val
    rw [hs0, hw0]; simp
  | ⟨1, _⟩ =>
    show ((cornerDims A B C wf).start (ix2 k q) idx (1 : Fin 2) + ((cornerDims A B C wf).window (ix2 k q) (1 : Fin 2) : Int)).toNat = q.val
    rw [hs1, hw1]; simp

include hidx in
/-- THE PADDED MATRIX READ AT (k, q), q < C: the block's entry (k, q). -/
theorem corner_apply {α : Type} (hCB : C ≤ B) (x : (⟨2, ![A, B]⟩ : Shape).Idx → α) (upd : (⟨2, ![A, C]⟩ : Shape).Idx → α)
    (k : Fin A) (q : Fin C) :
    Host.scatter (cornerDims A B C wf) (fun _ b => b) x idx upd (ix2 k (⟨q.val, lt_of_lt_of_le q.isLt hCB⟩ : Fin B))
      = upd (ix2 k q) := by
  refine scatter_set_apply _ x idx upd _ (ix2 k q) (resultIdx?_corner wf idx hidx hCB k q) fun j hj => ?_
  obtain ⟨k', q', rfl⟩ : ∃ (k' : Fin A) (q' : Fin C), j = ix2 k' q' := ⟨j 0, j 1, eq_ix2 j⟩
  rw [resultIdx?_corner wf idx hidx hCB k' q'] at hj
  have h := Option.some.inj hj
  have h0 := congrArg Fin.val (congrFun h (0 : Fin 2))
  have h1 := congrArg Fin.val (congrFun h (1 : Fin 2))
  have e0 : k' = k := Fin.ext h0
  have e1 : q' = q := Fin.ext h1
  rw [e0, e1]

end Corner

/-! ## A vector written at the origin of a longer one -/

/-- The dimension numbers: operand [B], one start index, updates [C], the update's axis a window axis. -/
abbrev prefixDims (B C : Nat) (wf : ScatterDims.WF ⟨1, ![B]⟩ ⟨1, ![1]⟩ ⟨1, ![C]⟩ [0] [] [0] 0) :
    ScatterDims ⟨1, ![B]⟩ ⟨1, ![1]⟩ ⟨1, ![C]⟩ where
  updateWindowDims := [0]
  insertedWindowDims := []
  scatterDimsToOperandDims := [0]
  indexVectorDim := 0
  wf := wf

section Prefix
variable {B C w : Nat} (wf : ScatterDims.WF ⟨1, ![B]⟩ ⟨1, ![1]⟩ ⟨1, ![C]⟩ [0] [] [0] 0)
  (idx : IVec ⟨1, ![1]⟩ w) (hidx : ∀ z, (idx z).toInt = 0)

include hidx in
theorem start_vec (q : Fin C) : (prefixDims B C wf).start (ix1 q) idx (0 : Fin 1) = 0 := by
  unfold ScatterDims.start
  rw [dif_pos (show (0 : Fin 1) ∈ (prefixDims B C wf).scatterDimsToOperandDims from List.mem_singleton.mpr rfl)]
  exact hidx _

theorem window_vec (q : Fin C) : (prefixDims B C wf).window (ix1 q) (0 : Fin 1) = q.val := by
  unfold ScatterDims.window
  rw [dif_pos (show (0 : Fin 1) ∈ (prefixDims B C wf).sKept from List.mem_filter.mpr ⟨List.mem_finRange _, by simp⟩)]
  rfl

include hidx in
/-- Update q lands on entry q. -/
theorem resultIdx?_prefix (hCB : C ≤ B) (q : Fin C) :
    (prefixDims B C wf).resultIdx? (ix1 q) idx = some (ix1 (⟨q.val, lt_of_lt_of_le q.isLt hCB⟩ : Fin B)) := by
  have hs := start_vec wf idx hidx q
  have hw := window_vec wf q
  unfold ScatterDims.resultIdx?
  have h : ∀ a, 0 ≤ (prefixDims B C wf).start (ix1 q) idx a + ((prefixDims B C wf).window (ix1 q) a : Int)
      ∧ (prefixDims B C wf).start (ix1 q) idx a + ((prefixDims B C wf).window (ix1 q) a : Int)
        < ((⟨1, ![B]⟩ : Shape).size a : Int) := fun a => by
    match a with
    | ⟨0, _⟩ =>
      show 0 ≤ (prefixDims B C wf).start (ix1 q) idx (0 : Fin 1) + ((prefixDims B C wf).window (ix1 q) (0 : Fin 1) : Int)
        ∧ (prefixDims B C wf).start (ix1 q) idx (0 : Fin 1) + ((prefixDims B C wf).window (ix1 q) (0 : Fin 1) : Int) < (B : Int)
      rw [hs, hw]; have := q.isLt; omega
  rw [dif_pos h]
  refine congrArg some (funext fun a => Fin.ext ?_)
  match a with
  | ⟨0, _⟩ =>
    show ((prefixDims B C wf).start (ix1 q) idx (0 : Fin 1) + ((prefixDims B C wf).window (ix1 q) (0 : Fin 1) : Int)).toNat = q.val
    rw [hs, hw]; simp

include hidx in
/-- THE PADDED VECTOR READ AT q < C: the shorter vector's entry q. -/
theorem prefix_apply {α : Type} (hCB : C ≤ B) (x : (⟨1, ![B]⟩ : Shape).Idx → α) (upd : (⟨1, ![C]⟩ : Shape).Idx → α) (q : Fin C) :
    Host.scatter (prefixDims B C wf) (fun _ b => b) x idx upd (ix1 (⟨q.val, lt_of_lt_of_le q.isLt hCB⟩ : Fin B)) = upd (ix1 q) := by
  refine scatter_set_apply _ x idx upd _ (ix1 q) (resultIdx?_prefix wf idx hidx hCB q) fun j hj => ?_
  obtain ⟨q', rfl⟩ : ∃ q' : Fin C, j = ix1 q' := ⟨j 0, eq_ix1 j⟩
  rw [resultIdx?_prefix wf idx hidx hCB q'] at hj
  have h0 := congrArg Fin.val (congrFun (Option.some.inj hj) (0 : Fin 1))
  have e : q' = q := Fin.ext h0
  rw [e]

end Prefix

end PadScatter

end
-- ==== Proof.SageMath.lean ====
/-
  The two programs compute one function.

  First layer. The kernel's region computes, at (r, q), the layer's entry with the summed neighbour row scaled by the
  reciprocal-count column, S(r, k) · (1 / c(r)); the reference divides, S(r, k) / c(r). The count c(r) is the maximum
  with one of a sum of ones, a positive real, so the two agree whatever S holds; the bias row [1, 256] is the bias
  vector read at its column; everything else is read at the same places. So the first region's array IS the
  reference's first-layer output.

  Logits. The second region's hidden entry (r, k) is the same layer over the second neighbour sum and the first layer's
  output, hence the reference's second-layer entry; its classifier reads the padded weights at (k, q) and the padded
  bias at q with q < 16, which are the weights and the bias themselves; and the program returns columns [0, 16).
-/
import proofs.«153080_j51977694216572_2_alg».proof.Proof.RefEntry
import proofs.«153080_j51977694216572_2_alg».proof.Proof.Region1
import proofs.«153080_j51977694216572_2_alg».proof.Proof.Region2
import proofs.«153080_j51977694216572_2_alg».proof.Proof.LibMeanScale
import proofs.«153080_j51977694216572_2_alg».proof.Proof.LibPadScatter
import Idealize.ShloMosaic.Lib.ValueLayout

set_option maxRecDepth 16384

noncomputable section

namespace SageMath

open Idealize.ShloMosaic Idealize.ShloMosaic.ValueIdx SageLayer RealArrays
open Cert.ReferenceIdeal.Read Cert.ReferenceIdeal.RefValue
open Cert.KernelIdeal (Layer1.layerArr Layer1.layerAt Layer1.layerArr_apply Layer2.logitArr Layer2.logitAt Layer2.hiddenAt Layer2.logitArr_apply)

/-- The edge counts floored at one are positive reals: each is the maximum with one of ones accumulated onto zero. -/
theorem counts_pos (x1 : (⟨Cert.ReferenceIdeal.S2x600000, .i32⟩ : BufTy).Contents (Elt Ideal)) : AllPos (val_main_v19 (F := Ideal) x1) := by
  unfold val_main_v19 val_main_v17
  exact SageMean.allPos_counts _ _ _ _ _ (fun _ => rfl) (fun _ => rfl) (fun _ => rfl)

/-- THE FIRST LAYER: the kernel region's function of the shared neighbour sum, the reciprocal-count column, the features,
    the weights and the bias row is the reference's first-layer output. -/
theorem layer1_math (x0 : (⟨Cert.ReferenceIdeal.S50000x128, .f32⟩ : BufTy).Contents (Elt Ideal)) (x1 : (⟨Cert.ReferenceIdeal.S2x600000, .i32⟩ : BufTy).Contents (Elt Ideal)) (x2 : (⟨Cert.ReferenceIdeal.S128x256, .f32⟩ : BufTy).Contents (Elt Ideal)) (x3 : (⟨Cert.ReferenceIdeal.S256, .f32⟩ : BufTy).Contents (Elt Ideal)) (x4 : (⟨Cert.ReferenceIdeal.S128x256, .f32⟩ : BufTy).Contents (Elt Ideal))
    (hc : (⟨1, ![50000]⟩ : Shape).ShapeCasts ⟨2, ![50000, 1]⟩) (hb : (⟨1, ![256]⟩ : Shape).ShapeCasts ⟨2, ![1, 256]⟩) :
    Cert.KernelIdeal.Layer1.layerArr (val_main_v13 (F := Ideal) x0 x1)
        (shapeCast ⟨2, ![50000, 1]⟩ (Host.divf (F := Ideal) (s := ⟨1, ![50000]⟩) (φ := FTy.f32) (val_main_v18 (F := Ideal))
          (val_main_v19 (F := Ideal) x1)) hc)
        x0 x2 (shapeCast ⟨2, ![1, 256]⟩ x3 hb) x4
      = val_main_v29 (F := Ideal) x0 x1 x2 x3 x4 := by
  funext i
  obtain ⟨r, q, rfl⟩ : ∃ (r : Fin 50000) (q : Fin 256), i = ix2 r q := ⟨i 0, i 1, eq_ix2 i⟩
  rw [layer1_apply, Cert.KernelIdeal.Layer1.layerArr_apply]
  unfold Cert.KernelIdeal.Layer1.layerAt
  exact entry_congr
    (fun k => SageMean.scaled_eq _ (val_main_v18 (F := Ideal)) (val_main_v19 (F := Ideal) x1) hc r (fun _ => rfl) (counts_pos x1))
    (fun _ => rfl) (fun _ => rfl) (fun _ => rfl) (shapeCast_a_1a_apply x3 hb (0 : Fin 1) q)

/-- THE LOGITS: columns [0, 16) of the second region's function — over the second neighbour sum of the first layer's
    output, the reciprocal-count column, the first layer's output, the weights, the bias row, and the classifier's weights
    and bias written into the leading corner of arbitrary larger arrays through start indices that are all zero — are
    the reference's logits. -/
theorem logits_math (x0 : (⟨Cert.ReferenceIdeal.S50000x128, .f32⟩ : BufTy).Contents (Elt Ideal)) (x1 : (⟨Cert.ReferenceIdeal.S2x600000, .i32⟩ : BufTy).Contents (Elt Ideal)) (x2 : (⟨Cert.ReferenceIdeal.S128x256, .f32⟩ : BufTy).Contents (Elt Ideal)) (x3 : (⟨Cert.ReferenceIdeal.S256, .f32⟩ : BufTy).Contents (Elt Ideal)) (x4 : (⟨Cert.ReferenceIdeal.S128x256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256x16, .f32⟩ : BufTy).Contents (Elt Ideal)) (x9 : (⟨Cert.ReferenceIdeal.S16, .f32⟩ : BufTy).Contents (Elt Ideal))
    (hc : (⟨1, ![50000]⟩ : Shape).ShapeCasts ⟨2, ![50000, 1]⟩) (hb : (⟨1, ![256]⟩ : Shape).ShapeCasts ⟨2, ![1, 256]⟩)
    (hb9 : (⟨1, ![128]⟩ : Shape).ShapeCasts ⟨2, ![1, 128]⟩)
    (hsl : (⟨2, ![50000, 128]⟩ : Shape).Slices ![0, 0] ⟨2, ![50000, 16]⟩)
    (zW : (⟨2, ![256, 128]⟩ : Shape).Idx → EReal) (zB : (⟨1, ![128]⟩ : Shape).Idx → EReal)
    (idx : IVec ⟨1, ![1]⟩ 32) (hidx : ∀ z, (idx z).toInt = 0)
    (r : Fin 50000) (q : Fin 16) :
    extractStridedSlice ⟨2, ![50000, 16]⟩ ![0, 0]
        (Cert.KernelIdeal.Layer2.logitArr (seg2 (val_main_v29 (F := Ideal) x0 x1 x2 x3 x4) x1)
          (shapeCast ⟨2, ![50000, 1]⟩ (Host.divf (F := Ideal) (s := ⟨1, ![50000]⟩) (φ := FTy.f32) (val_main_v18 (F := Ideal))
            (val_main_v19 (F := Ideal) x1)) hc)
          (val_main_v29 (F := Ideal) x0 x1 x2 x3 x4) x5 (shapeCast ⟨2, ![1, 256]⟩ x6 hb) x7
          (Host.scatter Cert.KernelIdeal.scatter_S256x128_S1_S256x16_01_n_1_0 (fun _ b => b) zW idx x8)
          (shapeCast ⟨2, ![1, 128]⟩ (Host.scatter Cert.KernelIdeal.scatter_S128_S1_S16_0_n_0_0 (fun _ b => b) zB idx x9) hb9))
        hsl (ix2 r q)
      = val_main_v59 (F := Ideal) x0 x1 x2 x3 x4 x5 x6 x7 x8 x9 (ix2 r q) := by
  rw [slice2_axis1_apply 0 _ hsl r q (⟨q.val, by have := q.isLt; omega⟩ : Fin 128) (Nat.zero_add _).symm,
    Cert.KernelIdeal.Layer2.logitArr_apply, logits_apply]
  unfold Cert.KernelIdeal.Layer2.logitAt
  refine congrArg₂ (· + ·) (Finset.sum_congr rfl fun k _ => congrArg₂ (· * ·) ?_ ?_) ?_
  · rw [layer2_apply, v39_eq, v45_eq]
    unfold Cert.KernelIdeal.Layer2.hiddenAt
    exact entry_congr
      (fun k' => SageMean.scaled_eq _ (val_main_v18 (F := Ideal)) (val_main_v19 (F := Ideal) x1) hc r (fun _ => rfl) (counts_pos x1))
      (fun _ => rfl) (fun _ => rfl) (fun _ => rfl) (shapeCast_a_1a_apply x6 hb (0 : Fin 1) k)
  · exact PadScatter.corner_apply (Cert.KernelIdeal.scatter_S256x128_S1_S256x16_01_n_1_0).wf idx hidx (by decide : 16 ≤ 128)
      zW x8 k q
  · rw [shapeCast_a_1a_apply]
    exact PadScatter.prefix_apply (Cert.KernelIdeal.scatter_S128_S1_S16_0_n_0_0).wf idx hidx (by decide : 16 ≤ 128) zB x9 q

end SageMath

end
-- ==== Proof.Bridge.lean ====
/-
  The kernel program's result is the reference's logits of the same arguments.

  The first region's output is the reference's first-layer output of the launch arrays; the second region's output,
  cut to its first 16 columns, is the reference's logits. Each step rewrites the contents a region finds in its arrays
  (the fold through the host stretches) and applies the identity between the two programs' functions.
-/
import proofs.«153080_j51977694216572_2_alg».proof.Proof.HostChain
import proofs.«153080_j51977694216572_2_alg».proof.Proof.SageMath

set_option maxRecDepth 16384

noncomputable section

namespace Cert.KernelIdeal.Bridge

open Cert.KernelIdeal Cert.KernelIdeal.Gen Cert.KernelIdeal.HostChain
open Idealize.ShloMosaic Idealize.ShloMosaic.TcCoe Idealize.ShloMosaic.ValueIdx Idealize.SL.Sem
open Cert.ReferenceIdeal.Read Cert.ReferenceIdeal.RefValue

variable (m : (ℓ : Loc nD τ sig) → Buf (Elt Ideal) ℓ) (ρ : Dev nD → PrngReg) (c : Dev nD)

/-- The one start index of the two corner writes is the constant 0. -/
theorem start_zero : ∀ z, ((broadcastInDim S1 ![] bcast_S_S1 (constantI S_ 32 0#32) : IVec S1 32) z).toInt = 0 :=
  fun _ => rfl

/-- The first region leaves the reference's first-layer output of the launch arrays. -/
theorem h1_eq : Layer1.G (V1 m ρ) c = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show Layer1.layerArr (W1 m ρ c (Proc.devRef .tc main_v22)) (W1 m ρ c (Proc.devRef .tc main_v12)) (W1 m ρ c (Proc.devRef .tc main_arg0)) (W1 m ρ c (Proc.devRef .tc main_arg2))
    (W1 m ρ c (Proc.devRef .tc main_v23)) (W1 m ρ c (Proc.devRef .tc main_arg4)) = _
  rw [w1_v22 m ρ c, w1_v12 m ρ c, w1_arg0 m ρ c, w1_arg2 m ρ c, w1_v23 m ρ c, w1_arg4 m ρ c]
  exact SageMath.layer1_math _ _ _ _ _ _ _

/-- THE RESULT: what the program returns is the reference's last stage of the launch arrays. -/
theorem result_eq : (W5 m ρ c (Proc.devRef .tc main_v45) : S50000x16.Idx → EReal)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [w5_v45 m ρ c]
  show extractStridedSlice S50000x16 ![0, 0]
    (Layer2.logitArr (W3 m ρ c (Proc.devRef .tc main_v35)) (W3 m ρ c (Proc.devRef .tc main_v12)) (W3 m ρ c (Proc.devRef .tc main_v24)) (W3 m ρ c (Proc.devRef .tc main_arg5))
      (W3 m ρ c (Proc.devRef .tc main_v36)) (W3 m ρ c (Proc.devRef .tc main_arg7)) (W3 m ρ c (Proc.devRef .tc main_v39)) (W3 m ρ c (Proc.devRef .tc main_v43)))
    slices_S50000x128_S50000x16_0_0 = _
  rw [w3_v35 m ρ c, w3_v12 m ρ c, w3_v24 m ρ c, w3_arg5 m ρ c, w3_v36 m ρ c, w3_arg7 m ρ c, w3_v39 m ρ c, w3_v43 m ρ c,
    w2_v24 m ρ c, h1_eq m ρ c, w1_v12 m ρ c]
  funext i
  obtain ⟨r, q, rfl⟩ : ∃ (r : Fin 50000) (q : Fin 16), i = ix2 r q := ⟨i 0, i 1, eq_ix2 i⟩
  exact SageMath.logits_math _ _ _ _ _ _ _ _ _ _ _ _ _ _ _ _ _ start_zero r q

end Cert.KernelIdeal.Bridge

end
-- ==== Proof.lean ====
/-
  A two-layer graph network with mean aggregation, ReLU and a linear classifier: the Pallas program against the plain
  jnp program, on the extended reals.

  Both programs sum, for every node, the feature rows of its in-neighbours (a gather along the edge sources and an
  accumulating scatter onto the edge targets) and count its in-edges, floored at one. Each layer is
      relu( (S / c) · Wl + b + H · Wr ),
  S the neighbour sums, c the counts, H the layer's input; the logits are h2 · wc + bc. The Pallas program computes each
  layer in a region of 25 row blocks, with the mean's division folded in as a product with a reciprocal-count column
  prepared once on the host, and fuses the classifier into the second region with its weights and bias padded to 128
  columns, returning the first 16. On the extended reals a change of float format is the identity and a matrix product
  into a zero accumulator is the plain sum over the contracted axis, in any tiling of the rows. Two laws join the two
  sides: x · (1 / c) = x / c for a positive real c and every x (the counts are positive reals whatever the inputs), and
  a smaller array written at the origin of a larger one is read back where it was written. Neither needs the inputs to be
  finite, so the precondition is not opened.

  The frames of the two Pallas programs are the generated ones; the reference's frame is its generated run with the
  result dropped; the ideal pass rewrote nothing, so there is nothing to preserve beyond the text itself.
-/
import proofs.«153080_j51977694216572_2_alg».proof.Defs
import proofs.«153080_j51977694216572_2_alg».proof.Proof.Gen.Kernel
import proofs.«153080_j51977694216572_2_alg».proof.Proof.Gen.Kernel.Frame
import proofs.«153080_j51977694216572_2_alg».proof.Proof.Gen.KernelIdeal
import proofs.«153080_j51977694216572_2_alg».proof.Proof.Gen.KernelIdeal.Frame
import proofs.«153080_j51977694216572_2_alg».proof.Proof.Gen.ReferenceIdeal
import proofs.«153080_j51977694216572_2_alg».proof.Proof.Gen.ReferenceIdeal.Run
import proofs.«153080_j51977694216572_2_alg».proof.Proof.Gen.ReferenceIdeal.Read
import proofs.«153080_j51977694216572_2_alg».proof.Proof.Gen.Pre_finite_inputs
import proofs.«153080_j51977694216572_2_alg».proof.Proof.KernelRun
import proofs.«153080_j51977694216572_2_alg».proof.Proof.Bridge

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the reference's logits of the launch arrays: the Pallas program by its run read through the
    two regions, the reference by its own run, from memories that agree on the ten arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.RunValue.run (F := Ideal) m ρ)
    exact ⟨(h c _ Cert.KernelIdeal.RunValue.result_mem_uc).trans (Cert.KernelIdeal.Bridge.result_eq m ρ c),
      (h c _ (Cert.KernelIdeal.Gen.mem_uc Cert.KernelIdeal.main_arg0 (by decide))).trans (Cert.KernelIdeal.Gen.W5_main_arg0 m ρ c),
      (h c _ (Cert.KernelIdeal.Gen.mem_uc Cert.KernelIdeal.main_arg1 (by decide))).trans (Cert.KernelIdeal.Gen.W5_main_arg1 m ρ c),
      (h c _ (Cert.KernelIdeal.Gen.mem_uc Cert.KernelIdeal.main_arg2 (by decide))).trans (Cert.KernelIdeal.Gen.W5_main_arg2 m ρ c),
      (h c _ (Cert.KernelIdeal.Gen.mem_uc Cert.KernelIdeal.main_arg3 (by decide))).trans (Cert.KernelIdeal.Gen.W5_main_arg3 m ρ c),
      (h c _ (Cert.KernelIdeal.Gen.mem_uc Cert.KernelIdeal.main_arg4 (by decide))).trans (Cert.KernelIdeal.Gen.W5_main_arg4 m ρ c),
      (h c _ (Cert.KernelIdeal.Gen.mem_uc Cert.KernelIdeal.main_arg5 (by decide))).trans (Cert.KernelIdeal.Gen.W5_main_arg5 m ρ c),
      (h c _ (Cert.KernelIdeal.Gen.mem_uc Cert.KernelIdeal.main_arg6 (by decide))).trans (Cert.KernelIdeal.Gen.W5_main_arg6 m ρ c),
      (h c _ (Cert.KernelIdeal.Gen.mem_uc Cert.KernelIdeal.main_arg7 (by decide))).trans (Cert.KernelIdeal.Gen.W5_main_arg7 m ρ c),
      (h c _ (Cert.KernelIdeal.Gen.mem_uc Cert.KernelIdeal.main_arg8 (by decide))).trans (Cert.KernelIdeal.Gen.W5_main_arg8 m ρ c),
      (h c _ (Cert.KernelIdeal.Gen.mem_uc Cert.KernelIdeal.main_arg9 (by decide))).trans (Cert.KernelIdeal.Gen.W5_main_arg9 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
